-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x64 : Shape := ⟨2, ![64, 64]⟩
abbrev S64x16 : Shape := ⟨2, ![64, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_arg4 : FVec F S64x16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x64 .f32) (main_arg3 : FVec F S64x64 .f32) (main_arg4 : FVec F S64x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x64 : Shape := ⟨2, ![64, 64]⟩
abbrev S64x16 : Shape := ⟨2, ![64, 16]⟩
abbrev S10000x64 : Shape := ⟨2, ![10000, 64]⟩
abbrev S400x10000 : Shape := ⟨2, ![400, 10000]⟩
abbrev S400x64 : Shape := ⟨2, ![400, 64]⟩
abbrev S10000x16 : Shape := ⟨2, ![10000, 16]⟩
abbrev S400x16 : Shape := ⟨2, ![400, 16]⟩

abbrev nBuf : Space → Nat
  | .hbm => 9
  | .vmem => 23
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x64, .f32⟩
  | .hbm, ⟨4, _⟩ => ⟨S64x16, .f32⟩
  | .hbm, ⟨5, _⟩ => ⟨S10000x64, .f32⟩
  | .hbm, ⟨6, _⟩ => ⟨S10000x10000, .bf16⟩
  | .hbm, ⟨7, _⟩ => ⟨S10000x64, .f32⟩
  | .hbm, ⟨8, _⟩ => ⟨S10000x16, .f32⟩
  | .local _ .vmem, ⟨0, _⟩ => ⟨S10000x128, .f32⟩
  | .local _ .vmem, ⟨1, _⟩ => ⟨S128x64, .f32⟩
  | .local _ .vmem, ⟨2, _⟩ => ⟨S400x10000, .f32⟩
  | .local _ .vmem, ⟨3, _⟩ => ⟨S400x10000, .f32⟩
  | .local _ .vmem, ⟨4, _⟩ => ⟨S400x64, .f32⟩
  | .local _ .vmem, ⟨5, _⟩ => ⟨S400x64, .f32⟩
  | .local _ .vmem, ⟨6, _⟩ => ⟨S400x10000, .bf16⟩
  | .local _ .vmem, ⟨7, _⟩ => ⟨S400x10000, .bf16⟩
  | .local _ .vmem, ⟨8, _⟩ => ⟨S10000x64, .bf16⟩
  | .local _ .vmem, ⟨9, _⟩ => ⟨S10000x64, .f32⟩
  | .local _ .vmem, ⟨10, _⟩ => ⟨S64x64, .f32⟩
  | .local _ .vmem, ⟨11, _⟩ => ⟨S400x10000, .bf16⟩
  | .local _ .vmem, ⟨12, _⟩ => ⟨S400x10000, .bf16⟩
  | .local _ .vmem, ⟨13, _⟩ => ⟨S400x64, .f32⟩
  | .local _ .vmem, ⟨14, _⟩ => ⟨S400x64, .f32⟩
  | .local _ .vmem, ⟨15, _⟩ => ⟨S10000x64, .bf16⟩
  | .local _ .vmem, ⟨16, _⟩ => ⟨S10000x64, .f32⟩
  | .local _ .vmem, ⟨17, _⟩ => ⟨S64x16, .f32⟩
  | .local _ .vmem, ⟨18, _⟩ => ⟨S400x10000, .bf16⟩
  | .local _ .vmem, ⟨19, _⟩ => ⟨S400x10000, .bf16⟩
  | .local _ .vmem, ⟨20, _⟩ => ⟨S400x16, .f32⟩
  | .local _ .vmem, ⟨21, _⟩ => ⟨S400x16, .f32⟩
  | .local _ .vmem, ⟨22, _⟩ => ⟨S10000x16, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x10000 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x10000 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S10000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x10000 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S400x64_S400x64_0_0 : ∀ a, (![0, 0] : Fin 2 → Nat) a + S400x64.size a ≤ S400x64.size a
  h_S400x64 : 0 < S400x64.numel
  inb_S64x64_S64x64_0_0 : ∀ a, (![0, 0] : Fin 2 → Nat) a + S64x64.size a ≤ S64x64.size a
  h_S64x64 : 0 < S64x64.numel
  shapeCasts_S400x10000_S400x10000 : S400x10000.ShapeCasts S400x10000
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  packedbf16_S10000x16_S10000x16_0_0 : (Rect.unit (s := S10000x16) ![0, 0] S10000x16.size inb_S10000x16_S10000x16_0_0).PackedRows (EltTy.packing .bf16)
  inb_S400x16_S400x16_0_0 : ∀ a, (![0, 0] : Fin 2 → Nat) a + S400x16.size a ≤ S400x16.size a
  h_S400x16 : 0 < S400x16.numel
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  dot_S400x10000_S10000x16_S400x16_1_0_0_1_n_n_wf : DotDims.WF S400x10000 S10000x16 S400x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x64.size a ≤ S10000x64.size a
  hwx0_3 : ∀ i : grid0.Coords, EltTy.bits .f32 = 32 ∨ (Rect.block (s := S10000x64) S400x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .bf16 = 32 ∨ (Rect.block (s := S10000x10000) S400x10000.size (cc0_transform_4 i) (hinb0_4 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S10000x64.size a
  hwx1_0 : ∀ i : grid1.Coords, EltTy.bits .f32 = 32 ∨ (Rect.block (s := S10000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x10000.size a ≤ S10000x10000.size a
  hwx1_2 : ∀ i : grid1.Coords, EltTy.bits .bf16 = 32 ∨ (Rect.block (s := S10000x10000) S400x10000.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .f32 = 32 ∨ (Rect.block (s := S10000x64) S400x64.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S10000x64.size a
  hwx2_0 : ∀ i : grid2.Coords, EltTy.bits .f32 = 32 ∨ (Rect.block (s := S10000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x10000.size a ≤ S10000x10000.size a
  hwx2_2 : ∀ i : grid2.Coords, EltTy.bits .bf16 = 32 ∨ (Rect.block (s := S10000x10000) S400x10000.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S400x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S400x10000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S10000x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S400x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S10000x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S400x10000.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S400x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x64 : Shape := ⟨2, ![64, 64]⟩
abbrev S64x16 : Shape := ⟨2, ![64, 16]⟩
abbrev S10000x64 : Shape := ⟨2, ![10000, 64]⟩
abbrev S_ : Shape := ⟨0, ![]⟩
abbrev S10000x16 : Shape := ⟨2, ![10000, 16]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x64, .f32⟩
  | .hbm, ⟨4, _⟩ => ⟨S64x16, .f32⟩
  | .hbm, ⟨5, _⟩ => ⟨S10000x64, .f32⟩
  | .hbm, ⟨6, _⟩ => ⟨S10000x64, .f32⟩
  | .hbm, ⟨7, _⟩ => ⟨S_, .f32⟩
  | .hbm, ⟨8, _⟩ => ⟨S10000x64, .f32⟩
  | .hbm, ⟨9, _⟩ => ⟨S10000x64, .f32⟩
  | .hbm, ⟨10, _⟩ => ⟨S10000x64, .f32⟩
  | .hbm, ⟨11, _⟩ => ⟨S10000x64, .f32⟩
  | .hbm, ⟨12, _⟩ => ⟨S_, .f32⟩
  | .hbm, ⟨13, _⟩ => ⟨S10000x64, .f32⟩
  | .hbm, ⟨14, _⟩ => ⟨S10000x64, .f32⟩
  | .hbm, ⟨15, _⟩ => ⟨S10000x16, .f32⟩
  | .hbm, ⟨16, _⟩ => ⟨S10000x16, .f32⟩
  | .hbm, ⟨17, _⟩ => ⟨S_, .f32⟩
  | .hbm, ⟨18, _⟩ => ⟨S10000x16, .f32⟩
  | .hbm, ⟨19, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call2_cst : Ref sig .tc := ⟨.hbm, 17, rfl⟩
abbrev main_call2_v0 : Ref sig .tc := ⟨.hbm, 18, rfl⟩
abbrev main_v8 : Ref sig .tc := ⟨.hbm, 19, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  bcast_S_S10000x16 : S_.BroadcastsInDim S10000x16 (![] : Fin 0 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.LibWholeStore.lean ====
/-
  One store through the rectangle that is the whole shape, read back.

  A kernel body that writes a staging buffer with a single full-shape store leaves exactly the stored
  payload in it, whatever the buffer held before; a full-shape load of a buffer returns its contents;
  and a full-shape load issued after such a store returns the payload.  These are the three facts a
  body with whole-block loads and stores needs in order to name what each buffer holds afterwards.
-/
import Idealize.ShloMosaic.Lib.Pipeline.FrameBody
import Idealize.ShloMosaic.Lib.Pipeline.Value
import Idealize.ShloMosaic.Lib.Pipeline.Frame

noncomputable section

namespace Idealize.ShloMosaic.WholeStore

open Idealize.ShloMosaic

variable {Val : EltTy → Type} [∀ e, Nonempty (Val e)]

/-- The offset `![0, 0]` of a rank-2 rectangle is the zero offset. -/
theorem zero2 : (![0, 0] : Fin 2 → Nat) = fun _ => 0 := by
  funext a; match a with | ⟨0, _⟩ => rfl | ⟨1, _⟩ => rfl

/-- A single piece through the whole shape covers every index. -/
theorem cover_whole {S : Shape} {e : EltTy} {off : Fin S.rank → Nat} (h : off = fun _ => 0)
    (inb : ∀ a, off a + S.size a ≤ S.size a) (w : S.Idx → Val e) (y : S.Idx) :
    ∃ p ∈ ([⟨Rect.unit off S.size inb, w⟩] : List (View.Piece Val S e)), y ∈ p.1.set := by
  subst h
  exact ⟨_, List.mem_singleton_self _, by show y ∈ (Rect.whole S).set; rw [Rect.set_whole]; exact Finset.mem_univ y⟩

/-- Reading back a buffer after one store through the whole shape gives the payload. -/
theorem read_store {sig : RefSig} {κ : Kind} {sp : Space} {S : Shape} {e : EltTy} (v : View sig κ sp S e)
    (f : v.ty.Contents Val) {off : Fin S.rank → Nat} (h : off = fun _ => 0)
    (inb : ∀ a, off a + S.size a ≤ S.size a) (w : S.Idx → Val e) :
    v.read Val (v.writes Val f [⟨Rect.unit off S.size inb, w⟩]) = w := by
  rw [View.read_writes_eq_canon _ _ _ (cover_whole h inb w), View.canon_unit_zero h]

/-- A load through the whole shape of a whole buffer holding `X` returns `X`. -/
theorem load_whole {sig : RefSig} {κ : Kind} {sp : Space} {S : Shape} {e : EltTy} {m : Memref sig κ sp S e}
    (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h]

end Idealize.ShloMosaic.WholeStore

end
-- ==== Proof.WordLayerRun0.lean ====
/-
  Layer 0 of the network as one pipelined region: relu(adj · (x · W)) computed a block of 400 rows at a time.

  The body keeps h = x · W (rounded to the storage format) in a scratch buffer.  At the first grid point it
  computes h from the two operands that are staged whole and stores it; at every point it multiplies the
  point's block of 400 adjacency rows by the scratch and stores max(·, 0) into the point's output block,
  and it also stores the adjacency block itself, in the narrower format, into a second output.
  So the scratch holds the same array after every point, and no output block depends on an earlier one.

  This file states that as two runs of the body (the first point; any later point, where the scratch is
  only read), names what every buffer holds after each point, and proves the per-point obligation of the
  pipeline from them.  Everything is stated for any float interpretation F and for arbitrary contents V of
  the core's buffers when the region is entered.
-/
import proofs.«149695_g32023276159196_cont_9to1_2195_4_alg».proof.Proof.Gen.Kernel.Launch
import proofs.«149695_g32023276159196_cont_9to1_2195_4_alg».proof.Proof.Gen.Kernel.Skeleton
import proofs.«149695_g32023276159196_cont_9to1_2195_4_alg».proof.Proof.Gen.Kernel.Points
import proofs.«149695_g32023276159196_cont_9to1_2195_4_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch: "this is the first grid point" -/

/-- The body's test `program_id(0) == 0`, as the scalar chain it is printed with. -/
abbrev first0 (i : grid0.Coords) : Prop :=
  (Scalar.cmpi .ne (Scalar.extui (Scalar.cmpi .eq (BitVec.ofNat 32 (i 0).val) 0#32)) 0#32) = 1#1

/-- Over the 25 points of the grid the test holds at point 0 and nowhere else. -/
theorem first0_iff : ∀ t : Fin cfg0.N, first0 (grid0.coords t) ↔ t.val = 0 :=
  (by decide +kernel : ∀ t : Fin grid0.N, first0 (grid0.coords t) ↔ t.val = 0)

/-! ## The body, run once in each case -/

set_option maxHeartbeats 2000000 in
/-- FIRST POINT.  With x, W and the adjacency block a in the input buffers, the body leaves h = k0_pay1 x W in
    the scratch, k0_pay3 a h in the output block, the narrowed block k0_pay2 a in the second output, and the inputs as they were. -/
theorem run_first0 (c : Dev nD) (E : Set ℕ) (i : grid0.Coords)
    (arg1 : Memref sig .tc .vmem S10000x128 .f32) (harg1 : arg1.IsWhole) (arg2 : Memref sig .tc .vmem S128x64 .f32) (harg2 : arg2.IsWhole)
    (arg3 : Memref sig .tc .vmem S400x10000 .f32) (harg3 : arg3.IsWhole) (arg4 : Memref sig .tc .vmem S400x64 .f32) (harg4 : arg4.IsWhole)
    (arg5 : Memref sig .tc .vmem S400x10000 .bf16) (harg5 : arg5.IsWhole) (arg6 : Memref sig .tc .vmem S10000x64 .bf16) (harg6 : arg6.IsWhole)
    (hc : first0 i) (x : Vec F S10000x128 .f32) (w : Vec F S128x64 .f32) (a : Vec F S400x10000 .f32) (Kont : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare a
            ∗ owns (c : Thread nD τ) arg4 fullShare (k0_pay3 a (k0_pay1 x w)) ∗ owns (c : Thread nD τ) arg5 fullShare (k0_pay2 a)
            ∗ owns (c : Thread nD τ) arg6 fullShare (k0_pay1 x w)) -∗ Kont ⟨⟩))
      ⊢ wp frame (wpE (defs₀ (F := F)) Variants.none c none) E (cc0__layer1_kernel i arg1 harg1 arg2 harg2 arg3 harg3 arg4 harg4 arg5 harg5 arg6 harg6) Kont := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, ⟨%d4, %f4, -, H4⟩, ⟨%dS, %fS, -, H5⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2, View.readCov_unit_zero (S := S10000x64) _ WholeStore.zero2]
  isplitl [H4]
  · iexists _; isplitr
    swap; · iexact H4
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2]
  · iexists _; isplitr
    swap; · iexact H5
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2]

set_option maxHeartbeats 2000000 in
/-- A LATER POINT.  The scratch holds some array h and is only read: the body leaves k0_pay3 a h in the output
    block, k0_pay2 a in the second output, and the inputs and the scratch as they were. -/
theorem run_later0 (c : Dev nD) (E : Set ℕ) (i : grid0.Coords)
    (arg1 : Memref sig .tc .vmem S10000x128 .f32) (harg1 : arg1.IsWhole) (arg2 : Memref sig .tc .vmem S128x64 .f32) (harg2 : arg2.IsWhole)
    (arg3 : Memref sig .tc .vmem S400x10000 .f32) (harg3 : arg3.IsWhole) (arg4 : Memref sig .tc .vmem S400x64 .f32) (harg4 : arg4.IsWhole)
    (arg5 : Memref sig .tc .vmem S400x10000 .bf16) (harg5 : arg5.IsWhole) (arg6 : Memref sig .tc .vmem S10000x64 .bf16) (harg6 : arg6.IsWhole)
    (hc : ¬ first0 i) (x : Vec F S10000x128 .f32) (w : Vec F S128x64 .f32) (a : Vec F S400x10000 .f32) (h : Vec F S10000x64 .bf16) (Kont : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d) ∗ owns (c : Thread nD τ) arg6 fullShare h
        ∗ (iprop(owns (c : Thread nD τ) arg1 fullShare x ∗ owns (c : Thread nD τ) arg2 fullShare w ∗ owns (c : Thread nD τ) arg3 fullShare a
            ∗ owns (c : Thread nD τ) arg4 fullShare (k0_pay3 a h) ∗ owns (c : Thread nD τ) arg5 fullShare (k0_pay2 a)
            ∗ owns (c : Thread nD τ) arg6 fullShare h) -∗ Kont ⟨⟩))
      ⊢ wp frame (wpE (defs₀ (F := F)) Variants.none c none) E (cc0__layer1_kernel i arg1 harg1 arg2 harg2 arg3 harg3 arg4 harg4 arg5 harg5 arg6 harg6) Kont := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fS, %hfS, H5⟩, Hk⟩
  obtain rfl := harg1.eq_unread hf0; obtain rfl := harg2.eq_unread hf1; obtain rfl := harg3.eq_unread hf2; obtain rfl := harg6.eq_unread hfS
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2, WholeStore.load_whole harg6 WholeStore.zero2]
  isplitl [H4]
  · iexists _; isplitr
    swap; · iexact H4
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2]
  · iexists _; isplitr; · ipureintro; exact harg6.read_unread _
    iexact H5

end Cert.Kernel.Layers

end
-- ==== Proof.WordLayerData0.lean ====
/-
  Layer 0: what every buffer holds after each grid point, and the pipeline's per-point obligation.

  Windows 0 and 1 stage x and W whole (their block is the whole array at every point); window 2 stages the
  point's 400 rows of the adjacency; window 3 is the point's 400 rows of the output; window 4 the same rows of
  the adjacency in the narrower format.  After the body at point t the inputs' buffers still hold their
  blocks, the output's holds k0_pay3 (rows t of adj) h, the second output's holds k0_pay2 (rows t of adj),
  where h = k0_pay1 x W is what the scratch holds from the first point on.  The region's invariant says
  exactly that about the scratch: anything before the first point, h after every point.
-/
import proofs.«149695_g32023276159196_cont_9to1_2195_4_alg».proof.Proof.WordLayerRun0

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## Blocks, and the array the scratch holds -/

/-- Window `w`'s block at point `t`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev origin0 : Fin cfg0.N := ⟨0, by decide⟩

/-- h = x · W in the storage format, from the blocks of windows 0 and 1 at the first point (which are the whole arrays). -/
def hid0 (c : Dev nD) : Vec F S10000x64 .bf16 := k0_pay1 (blk0 V c 0 origin0) (blk0 V c 1 origin0)

/-- At the first point, h is computed from that point's blocks. -/
theorem hid0_at (c : Dev nD) (t : Fin cfg0.N) (hz : t.val = 0) : hid0 V c = k0_pay1 (blk0 V c 0 t) (blk0 V c 1 t) := by
  obtain rfl : t = origin0 := Fin.ext hz
  rfl

/-! ## The invariant: what the scratch holds between points -/

/-- The scratch as a whole-buffer memref. -/
abbrev scratch0 : Memref sig .tc .vmem S10000x64 .bf16 := Memref.whole cc0_scratch0

/-- The core's other scoped buffers that are no staging buffer of this call: untouched by the body. -/
abbrev others0 (c : Dev nD) : sProp 𝕄 :=
  Pipeline.scopedRestBut (Ix := Unit) (Name := ℕ) (U := UR sig nD τ) (Lvl := ℕ) (Val := Elt F) spec0 c [cc0_scratch0]

/-- The scoped buffers the body may use: the scratch, at some contents, beside the others. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) (scratch0) fullShare d) ∗ others0 c) := by
  rw [Pipeline.scopedRest_split_of_list spec0 c [cc0_scratch0] (by decide) (by decide)]
  simp only [scratch0, owns_whole, bigSepL]
  rfl

/-- Before point `n`: nothing is known of the scratch before the first point; afterwards it holds h. -/
def inv0 (c : Dev nD) : ℕ → sProp 𝕄
  | 0 => Pipeline.ΦA spec0 c
  | _ + 1 => iprop(owns (c : Thread nD τ) scratch0 fullShare (hid0 V c) ∗ others0 c ∗ ∃ r, prngReg c r)

theorem inv0_zero (c : Dev nD) (n : ℕ) (hz : n = 0) :
    inv0 V c n = iprop(((∃ d, owns (c : Thread nD τ) scratch0 fullShare d) ∗ others0 c) ∗ ∃ r, prngReg c r) := by
  subst hz
  show Pipeline.ΦA spec0 c = _
  unfold Pipeline.ΦA; rw [scoped0_eq]

theorem inv0_pos (c : Dev nD) (n : ℕ) (hn : n ≠ 0) :
    inv0 V c n = iprop(owns (c : Thread nD τ) scratch0 fullShare (hid0 V c) ∗ others0 c ∗ ∃ r, prngReg c r) := by
  cases n with
  | zero => exact absurd rfl hn
  | succ n => rfl

/-! ## The proof data -/

/-- The arrays as the region finds them; after the body at point `t` the inputs' buffers at their blocks and the
    outputs' at the layer's value on that block of rows; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay3 (blk0 V c 2 t) (hid0 V c)
    | ⟨4, _⟩ => k0_pay2 (blk0 V c 2 t)
  Φ t := inv0 V c t.val
  q _ := fullShare
  owed _ := 0

theorem A0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = k0_pay3 (blk0 V c 2 t) (hid0 V c) := by dsimp only [dat0]
theorem after0_4 (c : Dev nD) (t : Fin cfg0.N) : (dat0 V c).after 4 t = k0_pay2 (blk0 V c 2 t) := by dsimp only [dat0]

/-- Input window 0's current buffer holds its block at every point, fetched there or not: an unfetched
    window's block index has not moved since the point that fetched it. -/
theorem found0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A0]; try rfl) t d).trans
    (by unfold Dat.fetched Dat.blockOf blk0; rw [A0]; try rfl)

/-- Input window 1's current buffer holds its block at every point, fetched there or not: an unfetched
    window's block index has not moved since the point that fetched it. -/
theorem found0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A0]; try rfl) t d).trans
    (by unfold Dat.fetched Dat.blockOf blk0; rw [A0]; try rfl)

/-- Input window 2's current buffer holds its block at every point, fetched there or not: an unfetched
    window's block index has not moved since the point that fetched it. -/
theorem found0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A0]; try rfl) t d).trans
    (by unfold Dat.fetched Dat.blockOf blk0; rw [A0]; try rfl)

/-! ## The per-point obligation -/

set_option maxHeartbeats 4000000 in
/-- The body at any point.  At the first point the invariant hands over the scratch at anything and takes it
    back at h; at a later point it hands it over at h, the body only reads it, and it comes back at h. -/
theorem step0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d)))
      ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t)
          ∗ owns (c : Thread nD τ) (st0_4 t) fullShare ((dat0 V c).after 4 t))) := by
  simp only [found0_0, found0_1, found0_2]
  rw [show (dat0 V c).owesAt () t.succ = (dat0 V c).owesAt () t.castSucc from rfl,
    after0_0, after0_1, after0_2, after0_3, after0_4]
  rw [show (dat0 V c).Φ t.succ = inv0 V c (t.val + 1) from rfl,
    show (dat0 V c).Φ t.castSucc = inv0 V c t.val from rfl, inv0_pos V c (t.val + 1) (Nat.succ_ne_zero _)]
  by_cases hz : t.val = 0
  · rw [inv0_zero V c _ hz, hid0_at V c t hz]
    iintro ⟨⟨⟨HS, HR⟩, Hg⟩, Ho, ⟨%d0, H0⟩, ⟨%d1, H1⟩, ⟨%d2, H2⟩, ⟨%d3, H3⟩, ⟨%d4, H4⟩⟩
    iapply (run_first0 c Set.univ (grid0.coords t) _ _ _ _ _ _ _ _ _ _ _ _ ((first0_iff t).mpr hz) (blk0 V c 0 t) (blk0 V c 1 t) (blk0 V c 2 t) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexact H4
  · rw [inv0_pos V c _ hz]
    iintro ⟨⟨HS, HR, Hg⟩, Ho, ⟨%d0, H0⟩, ⟨%d1, H1⟩, ⟨%d2, H2⟩, ⟨%d3, H3⟩, ⟨%d4, H4⟩⟩
    iapply (run_later0 c Set.univ (grid0.coords t) _ _ _ _ _ _ _ _ _ _ _ _ (fun h => hz ((first0_iff t).mp h)) (blk0 V c 0 t) (blk0 V c 1 t) (blk0 V c 2 t) (hid0 V c) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexact H4

/-- The pipeline's body obligation, at every point. -/
theorem obligation0 (c : Dev nD) : BodyObligation (dat0 (F := F) V c) (defs₀ (F := F)) Variants.none () Set.univ := fun t => by
  rw [bigSep_W0, bigSep_W0]
  exact step0 V c t

/-! ## The invariant at the region's two ends -/

/-- What the region is entered with is the invariant before the first point. -/
theorem enter0 (c : Dev nD) : Pipeline.ΦA spec0 c ⊢ (dat0 V c).Φ 0 := .rfl

/-- After the last point the invariant gives the scoped buffers back, the scratch's contents forgotten. -/
theorem leave0 (c : Dev nD) : (dat0 V c).Φ (Fin.last cfg0.N) ⊢ Pipeline.ΦA spec0 c := by
  rw [show (dat0 V c).Φ (Fin.last cfg0.N) = inv0 V c cfg0.N from rfl, inv0_pos V c _ (by decide)]
  unfold Pipeline.ΦA; rw [scoped0_eq]
  iintro ⟨HS, HR, Hg⟩
  isplitl [HS HR]
  · isplitl [HS]; · iexists _; iexact HS
    iexact HR
  iexact Hg

end Cert.Kernel.Layers

end
-- ==== Proof.WordLayerRun1.lean ====
/-
  Layer 1 of the network as one pipelined region: relu(adj · (x · W)) computed a block of 400 rows at a time.

  The body keeps h = x · W (rounded to the storage format) in a scratch buffer.  At the first grid point it
  computes h from the two operands that are staged whole and stores it; at every point it multiplies the
  point's block of 400 adjacency rows by the scratch and stores max(·, 0) into the point's output block.
  So the scratch holds the same array after every point, and no output block depends on an earlier one.

  This file states that as two runs of the body (the first point; any later point, where the scratch is
  only read), names what every buffer holds after each point, and proves the per-point obligation of the
  pipeline from them.  Everything is stated for any float interpretation F and for arbitrary contents V of
  the core's buffers when the region is entered.
-/
import proofs.«149695_g32023276159196_cont_9to1_2195_4_alg».proof.Proof.Gen.Kernel.Launch
import proofs.«149695_g32023276159196_cont_9to1_2195_4_alg».proof.Proof.Gen.Kernel.Skeleton
import proofs.«149695_g32023276159196_cont_9to1_2195_4_alg».proof.Proof.Gen.Kernel.Points
import proofs.«149695_g32023276159196_cont_9to1_2195_4_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch: "this is the first grid point" -/

/-- The body's test `program_id(0) == 0`, as the scalar chain it is printed with. -/
abbrev first1 (i : grid1.Coords) : Prop :=
  (Scalar.cmpi .ne (Scalar.extui (Scalar.cmpi .eq (BitVec.ofNat 32 (i 0).val) 0#32)) 0#32) = 1#1

/-- Over the 25 points of the grid the test holds at point 0 and nowhere else. -/
theorem first1_iff : ∀ t : Fin cfg1.N, first1 (grid1.coords t) ↔ t.val = 0 :=
  (by decide +kernel : ∀ t : Fin grid1.N, first1 (grid1.coords t) ↔ t.val = 0)

/-! ## The body, run once in each case -/

set_option maxHeartbeats 2000000 in
/-- FIRST POINT.  With x, W and the adjacency block a in the input buffers, the body leaves h = k1_pay1 x W in
    the scratch, k1_pay2 a h in the output block, and the inputs as they were. -/
theorem run_first1 (c : Dev nD) (E : Set ℕ) (i : grid1.Coords)
    (arg1 : Memref sig .tc .vmem S10000x64 .f32) (harg1 : arg1.IsWhole) (arg2 : Memref sig .tc .vmem S64x64 .f32) (harg2 : arg2.IsWhole)
    (arg3 : Memref sig .tc .vmem S400x10000 .bf16) (harg3 : arg3.IsWhole) (arg4 : Memref sig .tc .vmem S400x64 .f32) (harg4 : arg4.IsWhole)
    (arg5 : Memref sig .tc .vmem S10000x64 .bf16) (harg5 : arg5.IsWhole)
    (hc : first1 i) (x : Vec F S10000x64 .f32) (w : Vec F S64x64 .f32) (a : Vec F S400x10000 .bf16) (Kont : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (k1_pay2 a (k1_pay1 x w))
            ∗ owns (c : Thread nD τ) arg5 fullShare (k1_pay1 x w)) -∗ Kont ⟨⟩))
      ⊢ wp frame (wpE (defs₀ (F := F)) Variants.none c none) E (cc1__layer_kernel i arg1 harg1 arg2 harg2 arg3 harg3 arg4 harg4 arg5 harg5) Kont := by
  simp only [cc1__layer_kernel_eq_skeleton]; unfold cc1__layer_kernel_skel
  unfold owns
  iintro ⟨⟨%f0, %hf0, H0⟩, ⟨%f1, %hf1, H1⟩, ⟨%f2, %hf2, H2⟩, ⟨%d3, %f3, -, H3⟩, ⟨%dS, %fS, -, H4⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2, View.readCov_unit_zero (S := S10000x64) _ WholeStore.zero2]
  · iexists _; isplitr
    swap; · iexact H4
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2]

set_option maxHeartbeats 2000000 in
/-- A LATER POINT.  The scratch holds some array h and is only read: the body leaves k1_pay2 a h in the output
    block, and the inputs and the scratch as they were. -/
theorem run_later1 (c : Dev nD) (E : Set ℕ) (i : grid1.Coords)
    (arg1 : Memref sig .tc .vmem S10000x64 .f32) (harg1 : arg1.IsWhole) (arg2 : Memref sig .tc .vmem S64x64 .f32) (harg2 : arg2.IsWhole)
    (arg3 : Memref sig .tc .vmem S400x10000 .bf16) (harg3 : arg3.IsWhole) (arg4 : Memref sig .tc .vmem S400x64 .f32) (harg4 : arg4.IsWhole)
    (arg5 : Memref sig .tc .vmem S10000x64 .bf16) (harg5 : arg5.IsWhole)
    (hc : ¬ first1 i) (x : Vec F S10000x64 .f32) (w : Vec F S64x64 .f32) (a : Vec F S400x10000 .bf16) (h : Vec F S10000x64 .bf16) (Kont : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ owns (c : Thread nD τ) arg5 fullShare h
        ∗ (iprop(owns (c : Thread nD τ) arg1 fullShare x ∗ owns (c : Thread nD τ) arg2 fullShare w ∗ owns (c : Thread nD τ) arg3 fullShare a
            ∗ owns (c : Thread nD τ) arg4 fullShare (k1_pay2 a h)
            ∗ owns (c : Thread nD τ) arg5 fullShare h) -∗ Kont ⟨⟩))
      ⊢ wp frame (wpE (defs₀ (F := F)) Variants.none c none) E (cc1__layer_kernel i arg1 harg1 arg2 harg2 arg3 harg3 arg4 harg4 arg5 harg5) Kont := by
  simp only [cc1__layer_kernel_eq_skeleton]; unfold cc1__layer_kernel_skel
  unfold owns
  iintro ⟨⟨%f0, %hf0, H0⟩, ⟨%f1, %hf1, H1⟩, ⟨%f2, %hf2, H2⟩, ⟨%d3, %f3, -, H3⟩, ⟨%fS, %hfS, H4⟩, Hk⟩
  obtain rfl := harg1.eq_unread hf0; obtain rfl := harg2.eq_unread hf1; obtain rfl := harg3.eq_unread hf2; obtain rfl := harg5.eq_unread hfS
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2, WholeStore.load_whole harg5 WholeStore.zero2]
  · iexists _; isplitr; · ipureintro; exact harg5.read_unread _
    iexact H4

end Cert.Kernel.Layers

end
-- ==== Proof.WordLayerData1.lean ====
/-
  Layer 1: what every buffer holds after each grid point, and the pipeline's per-point obligation.

  Windows 0 and 1 stage x and W whole (their block is the whole array at every point); window 2 stages the
  point's 400 rows of the adjacency; window 3 is the point's 400 rows of the output.  After the body at point t the inputs' buffers still hold their
  blocks, the output's holds k1_pay2 (rows t of adj) h,
  where h = k1_pay1 x W is what the scratch holds from the first point on.  The region's invariant says
  exactly that about the scratch: anything before the first point, h after every point.
-/
import proofs.«149695_g32023276159196_cont_9to1_2195_4_alg».proof.Proof.WordLayerRun1

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## Blocks, and the array the scratch holds -/

/-- Window `w`'s block at point `t`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
abbrev origin1 : Fin cfg1.N := ⟨0, by decide⟩

/-- h = x · W in the storage format, from the blocks of windows 0 and 1 at the first point (which are the whole arrays). -/
def hid1 (c : Dev nD) : Vec F S10000x64 .bf16 := k1_pay1 (blk1 V c 0 origin1) (blk1 V c 1 origin1)

/-- At the first point, h is computed from that point's blocks. -/
theorem hid1_at (c : Dev nD) (t : Fin cfg1.N) (hz : t.val = 0) : hid1 V c = k1_pay1 (blk1 V c 0 t) (blk1 V c 1 t) := by
  obtain rfl : t = origin1 := Fin.ext hz
  rfl

/-! ## The invariant: what the scratch holds between points -/

/-- The scratch as a whole-buffer memref. -/
abbrev scratch1 : Memref sig .tc .vmem S10000x64 .bf16 := Memref.whole cc1_scratch0

/-- The core's other scoped buffers that are no staging buffer of this call: untouched by the body. -/
abbrev others1 (c : Dev nD) : sProp 𝕄 :=
  Pipeline.scopedRestBut (Ix := Unit) (Name := ℕ) (U := UR sig nD τ) (Lvl := ℕ) (Val := Elt F) spec1 c [cc1_scratch0]

/-- The scoped buffers the body may use: the scratch, at some contents, beside the others. -/
theorem scoped1_eq (c : Dev nD) :
    (Pipeline.scopedRest (Ix := Unit) (Name := ℕ) (U := UR sig nD τ) (Lvl := ℕ) (Val := Elt F) spec1 c : sProp 𝕄)
      = iprop((∃ d, owns (c : Thread nD τ) (scratch1) fullShare d) ∗ others1 c) := by
  rw [Pipeline.scopedRest_split_of_list spec1 c [cc1_scratch0] (by decide) (by decide)]
  simp only [scratch1, owns_whole, bigSepL]
  rfl

/-- Before point `n`: nothing is known of the scratch before the first point; afterwards it holds h. -/
def inv1 (c : Dev nD) : ℕ → sProp 𝕄
  | 0 => Pipeline.ΦA spec1 c
  | _ + 1 => iprop(owns (c : Thread nD τ) scratch1 fullShare (hid1 V c) ∗ others1 c ∗ ∃ r, prngReg c r)

theorem inv1_zero (c : Dev nD) (n : ℕ) (hz : n = 0) :
    inv1 V c n = iprop(((∃ d, owns (c : Thread nD τ) scratch1 fullShare d) ∗ others1 c) ∗ ∃ r, prngReg c r) := by
  subst hz
  show Pipeline.ΦA spec1 c = _
  unfold Pipeline.ΦA; rw [scoped1_eq]

theorem inv1_pos (c : Dev nD) (n : ℕ) (hn : n ≠ 0) :
    inv1 V c n = iprop(owns (c : Thread nD τ) scratch1 fullShare (hid1 V c) ∗ others1 c ∗ ∃ r, prngReg c r) := by
  cases n with
  | zero => exact absurd rfl hn
  | succ n => rfl

/-! ## The proof data -/

/-- The arrays as the region finds them; after the body at point `t` the inputs' buffers at their blocks and the
    output's at the layer's value on that block of rows; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay2 (blk1 V c 2 t) (hid1 V c)
  Φ t := inv1 V c t.val
  q _ := fullShare
  owed _ := 0

theorem A1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = k1_pay2 (blk1 V c 2 t) (hid1 V c) := by dsimp only [dat1]

/-- Input window 0's current buffer holds its block at every point, fetched there or not: an unfetched
    window's block index has not moved since the point that fetched it. -/
theorem found1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A1]; try rfl) t d).trans
    (by unfold Dat.fetched Dat.blockOf blk1; rw [A1]; try rfl)

/-- Input window 1's current buffer holds its block at every point, fetched there or not: an unfetched
    window's block index has not moved since the point that fetched it. -/
theorem found1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A1]; try rfl) t d).trans
    (by unfold Dat.fetched Dat.blockOf blk1; rw [A1]; try rfl)

/-- Input window 2's current buffer holds its block at every point, fetched there or not: an unfetched
    window's block index has not moved since the point that fetched it. -/
theorem found1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A1]; try rfl) t d).trans
    (by unfold Dat.fetched Dat.blockOf blk1; rw [A1]; try rfl)

/-! ## The per-point obligation -/

set_option maxHeartbeats 4000000 in
/-- The body at any point.  At the first point the invariant hands over the scratch at anything and takes it
    back at h; at a later point it hands it over at h, the body only reads it, and it comes back at h. -/
theorem step1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
      ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t))) := by
  simp only [found1_0, found1_1, found1_2]
  rw [show (dat1 V c).owesAt () t.succ = (dat1 V c).owesAt () t.castSucc from rfl,
    after1_0, after1_1, after1_2, after1_3]
  rw [show (dat1 V c).Φ t.succ = inv1 V c (t.val + 1) from rfl,
    show (dat1 V c).Φ t.castSucc = inv1 V c t.val from rfl, inv1_pos V c (t.val + 1) (Nat.succ_ne_zero _)]
  by_cases hz : t.val = 0
  · rw [inv1_zero V c _ hz, hid1_at V c t hz]
    iintro ⟨⟨⟨HS, HR⟩, Hg⟩, Ho, ⟨%d0, H0⟩, ⟨%d1, H1⟩, ⟨%d2, H2⟩, ⟨%d3, H3⟩⟩
    iapply (run_first1 c Set.univ (grid1.coords t) _ _ _ _ _ _ _ _ _ _ ((first1_iff t).mpr hz) (blk1 V c 0 t) (blk1 V c 1 t) (blk1 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [inv1_pos V c _ hz]
    iintro ⟨⟨HS, HR, Hg⟩, Ho, ⟨%d0, H0⟩, ⟨%d1, H1⟩, ⟨%d2, H2⟩, ⟨%d3, H3⟩⟩
    iapply (run_later1 c Set.univ (grid1.coords t) _ _ _ _ _ _ _ _ _ _ (fun h => hz ((first1_iff t).mp h)) (blk1 V c 0 t) (blk1 V c 1 t) (blk1 V c 2 t) (hid1 V c) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3

/-- The pipeline's body obligation, at every point. -/
theorem obligation1 (c : Dev nD) : BodyObligation (dat1 (F := F) V c) (defs₀ (F := F)) Variants.none () Set.univ := fun t => by
  rw [bigSep_W1, bigSep_W1]
  exact step1 V c t

/-! ## The invariant at the region's two ends -/

/-- What the region is entered with is the invariant before the first point. -/
theorem enter1 (c : Dev nD) : Pipeline.ΦA spec1 c ⊢ (dat1 V c).Φ 0 := .rfl

/-- After the last point the invariant gives the scoped buffers back, the scratch's contents forgotten. -/
theorem leave1 (c : Dev nD) : (dat1 V c).Φ (Fin.last cfg1.N) ⊢ Pipeline.ΦA spec1 c := by
  rw [show (dat1 V c).Φ (Fin.last cfg1.N) = inv1 V c cfg1.N from rfl, inv1_pos V c _ (by decide)]
  unfold Pipeline.ΦA; rw [scoped1_eq]
  iintro ⟨HS, HR, Hg⟩
  isplitl [HS HR]
  · isplitl [HS]; · iexists _; iexact HS
    iexact HR
  iexact Hg

end Cert.Kernel.Layers

end
-- ==== Proof.WordLayerRun2.lean ====
/-
  Layer 2 of the network as one pipelined region: relu(adj · (x · W)) computed a block of 400 rows at a time.

  The body keeps h = x · W (rounded to the storage format) in a scratch buffer.  At the first grid point it
  computes h from the two operands that are staged whole and stores it; at every point it multiplies the
  point's block of 400 adjacency rows by the scratch and stores max(·, 0) into the point's output block.
  So the scratch holds the same array after every point, and no output block depends on an earlier one.

  This file states that as two runs of the body (the first point; any later point, where the scratch is
  only read), names what every buffer holds after each point, and proves the per-point obligation of the
  pipeline from them.  Everything is stated for any float interpretation F and for arbitrary contents V of
  the core's buffers when the region is entered.
-/
import proofs.«149695_g32023276159196_cont_9to1_2195_4_alg».proof.Proof.Gen.Kernel.Launch
import proofs.«149695_g32023276159196_cont_9to1_2195_4_alg».proof.Proof.Gen.Kernel.Skeleton
import proofs.«149695_g32023276159196_cont_9to1_2195_4_alg».proof.Proof.Gen.Kernel.Points
import proofs.«149695_g32023276159196_cont_9to1_2195_4_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch: "this is the first grid point" -/

/-- The body's test `program_id(0) == 0`, as the scalar chain it is printed with. -/
abbrev first2 (i : grid2.Coords) : Prop :=
  (Scalar.cmpi .ne (Scalar.extui (Scalar.cmpi .eq (BitVec.ofNat 32 (i 0).val) 0#32)) 0#32) = 1#1

/-- Over the 25 points of the grid the test holds at point 0 and nowhere else. -/
theorem first2_iff : ∀ t : Fin cfg2.N, first2 (grid2.coords t) ↔ t.val = 0 :=
  (by decide +kernel : ∀ t : Fin grid2.N, first2 (grid2.coords t) ↔ t.val = 0)

/-! ## The body, run once in each case -/

set_option maxHeartbeats 2000000 in
/-- FIRST POINT.  With x, W and the adjacency block a in the input buffers, the body leaves h = k2_pay1 x W in
    the scratch, k2_pay2 a h in the output block, and the inputs as they were. -/
theorem run_first2 (c : Dev nD) (E : Set ℕ) (i : grid2.Coords)
    (arg1 : Memref sig .tc .vmem S10000x64 .f32) (harg1 : arg1.IsWhole) (arg2 : Memref sig .tc .vmem S64x16 .f32) (harg2 : arg2.IsWhole)
    (arg3 : Memref sig .tc .vmem S400x10000 .bf16) (harg3 : arg3.IsWhole) (arg4 : Memref sig .tc .vmem S400x16 .f32) (harg4 : arg4.IsWhole)
    (arg5 : Memref sig .tc .vmem S10000x16 .bf16) (harg5 : arg5.IsWhole)
    (hc : first2 i) (x : Vec F S10000x64 .f32) (w : Vec F S64x16 .f32) (a : Vec F S400x10000 .bf16) (Kont : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (k2_pay2 a (k2_pay1 x w))
            ∗ owns (c : Thread nD τ) arg5 fullShare (k2_pay1 x w)) -∗ Kont ⟨⟩))
      ⊢ wp frame (wpE (defs₀ (F := F)) Variants.none c none) E (cc2__layer_kernel i arg1 harg1 arg2 harg2 arg3 harg3 arg4 harg4 arg5 harg5) Kont := by
  simp only [cc2__layer_kernel_eq_skeleton]; unfold cc2__layer_kernel_skel
  unfold owns
  iintro ⟨⟨%f0, %hf0, H0⟩, ⟨%f1, %hf1, H1⟩, ⟨%f2, %hf2, H2⟩, ⟨%d3, %f3, -, H3⟩, ⟨%dS, %fS, -, H4⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    simp only [WholeStore.read_store (S := S400x16) _ _ WholeStore.zero2, WholeStore.read_store (S := S10000x16) _ _ WholeStore.zero2, WholeStore.read_store (S := S400x10000) _ _ WholeStore.zero2, WholeStore.load_whole harg1 WholeStore.zero2, WholeStore.load_whole harg2 WholeStore.zero2, WholeStore.load_whole harg3 WholeStore.zero2, View.readCov_unit_zero (S := S10000x16) _ WholeStore.zero2]
  · iexists _; isplitr
    swap; · iexact H4
    ipureintro
    sl_unfold_run_names
    simp only [WholeStore.read_store (S := S400x16) _ _ WholeStore.zero2, WholeStore.read_store (S := S10000x16) _ _ WholeStore.zero2, WholeStore.read_store (S := S400x10000) _ _ WholeStore.zero2, WholeStore.load_whole harg1 WholeStore.zero2, WholeStore.load_whole harg2 WholeStore.zero2, WholeStore.load_whole harg3 WholeStore.zero2]

set_option maxHeartbeats 2000000 in
/-- A LATER POINT.  The scratch holds some array h and is only read: the body leaves k2_pay2 a h in the output
    block, and the inputs and the scratch as they were. -/
theorem run_later2 (c : Dev nD) (E : Set ℕ) (i : grid2.Coords)
    (arg1 : Memref sig .tc .vmem S10000x64 .f32) (harg1 : arg1.IsWhole) (arg2 : Memref sig .tc .vmem S64x16 .f32) (harg2 : arg2.IsWhole)
    (arg3 : Memref sig .tc .vmem S400x10000 .bf16) (harg3 : arg3.IsWhole) (arg4 : Memref sig .tc .vmem S400x16 .f32) (harg4 : arg4.IsWhole)
    (arg5 : Memref sig .tc .vmem S10000x16 .bf16) (harg5 : arg5.IsWhole)
    (hc : ¬ first2 i) (x : Vec F S10000x64 .f32) (w : Vec F S64x16 .f32) (a : Vec F S400x10000 .bf16) (h : Vec F S10000x16 .bf16) (Kont : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ owns (c : Thread nD τ) arg5 fullShare h
        ∗ (iprop(owns (c : Thread nD τ) arg1 fullShare x ∗ owns (c : Thread nD τ) arg2 fullShare w ∗ owns (c : Thread nD τ) arg3 fullShare a
            ∗ owns (c : Thread nD τ) arg4 fullShare (k2_pay2 a h)
            ∗ owns (c : Thread nD τ) arg5 fullShare h) -∗ Kont ⟨⟩))
      ⊢ wp frame (wpE (defs₀ (F := F)) Variants.none c none) E (cc2__layer_kernel i arg1 harg1 arg2 harg2 arg3 harg3 arg4 harg4 arg5 harg5) Kont := by
  simp only [cc2__layer_kernel_eq_skeleton]; unfold cc2__layer_kernel_skel
  unfold owns
  iintro ⟨⟨%f0, %hf0, H0⟩, ⟨%f1, %hf1, H1⟩, ⟨%f2, %hf2, H2⟩, ⟨%d3, %f3, -, H3⟩, ⟨%fS, %hfS, H4⟩, Hk⟩
  obtain rfl := harg1.eq_unread hf0; obtain rfl := harg2.eq_unread hf1; obtain rfl := harg3.eq_unread hf2; obtain rfl := harg5.eq_unread hfS
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    simp only [WholeStore.read_store (S := S400x16) _ _ WholeStore.zero2, WholeStore.read_store (S := S10000x16) _ _ WholeStore.zero2, WholeStore.read_store (S := S400x10000) _ _ WholeStore.zero2, WholeStore.load_whole harg1 WholeStore.zero2, WholeStore.load_whole harg2 WholeStore.zero2, WholeStore.load_whole harg3 WholeStore.zero2, WholeStore.load_whole harg5 WholeStore.zero2]
  · iexists _; isplitr; · ipureintro; exact harg5.read_unread _
    iexact H4

end Cert.Kernel.Layers

end
-- ==== Proof.WordLayerData2.lean ====
/-
  Layer 2: what every buffer holds after each grid point, and the pipeline's per-point obligation.

  Windows 0 and 1 stage x and W whole (their block is the whole array at every point); window 2 stages the
  point's 400 rows of the adjacency; window 3 is the point's 400 rows of the output.  After the body at point t the inputs' buffers still hold their
  blocks, the output's holds k2_pay2 (rows t of adj) h,
  where h = k2_pay1 x W is what the scratch holds from the first point on.  The region's invariant says
  exactly that about the scratch: anything before the first point, h after every point.
-/
import proofs.«149695_g32023276159196_cont_9to1_2195_4_alg».proof.Proof.WordLayerRun2

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## Blocks, and the array the scratch holds -/

/-- Window `w`'s block at point `t`, read off the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first grid point. -/
abbrev origin2 : Fin cfg2.N := ⟨0, by decide⟩

/-- h = x · W in the storage format, from the blocks of windows 0 and 1 at the first point (which are the whole arrays). -/
def hid2 (c : Dev nD) : Vec F S10000x16 .bf16 := k2_pay1 (blk2 V c 0 origin2) (blk2 V c 1 origin2)

/-- At the first point, h is computed from that point's blocks. -/
theorem hid2_at (c : Dev nD) (t : Fin cfg2.N) (hz : t.val = 0) : hid2 V c = k2_pay1 (blk2 V c 0 t) (blk2 V c 1 t) := by
  obtain rfl : t = origin2 := Fin.ext hz
  rfl

/-! ## The invariant: what the scratch holds between points -/

/-- The scratch as a whole-buffer memref. -/
abbrev scratch2 : Memref sig .tc .vmem S10000x16 .bf16 := Memref.whole cc2_scratch0

/-- The core's other scoped buffers that are no staging buffer of this call: untouched by the body. -/
abbrev others2 (c : Dev nD) : sProp 𝕄 :=
  Pipeline.scopedRestBut (Ix := Unit) (Name := ℕ) (U := UR sig nD τ) (Lvl := ℕ) (Val := Elt F) spec2 c [cc2_scratch0]

/-- The scoped buffers the body may use: the scratch, at some contents, beside the others. -/
theorem scoped2_eq (c : Dev nD) :
    (Pipeline.scopedRest (Ix := Unit) (Name := ℕ) (U := UR sig nD τ) (Lvl := ℕ) (Val := Elt F) spec2 c : sProp 𝕄)
      = iprop((∃ d, owns (c : Thread nD τ) (scratch2) fullShare d) ∗ others2 c) := by
  rw [Pipeline.scopedRest_split_of_list spec2 c [cc2_scratch0] (by decide) (by decide)]
  simp only [scratch2, owns_whole, bigSepL]
  rfl

/-- Before point `n`: nothing is known of the scratch before the first point; afterwards it holds h. -/
def inv2 (c : Dev nD) : ℕ → sProp 𝕄
  | 0 => Pipeline.ΦA spec2 c
  | _ + 1 => iprop(owns (c : Thread nD τ) scratch2 fullShare (hid2 V c) ∗ others2 c ∗ ∃ r, prngReg c r)

theorem inv2_zero (c : Dev nD) (n : ℕ) (hz : n = 0) :
    inv2 V c n = iprop(((∃ d, owns (c : Thread nD τ) scratch2 fullShare d) ∗ others2 c) ∗ ∃ r, prngReg c r) := by
  subst hz
  show Pipeline.ΦA spec2 c = _
  unfold Pipeline.ΦA; rw [scoped2_eq]

theorem inv2_pos (c : Dev nD) (n : ℕ) (hn : n ≠ 0) :
    inv2 V c n = iprop(owns (c : Thread nD τ) scratch2 fullShare (hid2 V c) ∗ others2 c ∗ ∃ r, prngReg c r) := by
  cases n with
  | zero => exact absurd rfl hn
  | succ n => rfl

/-! ## The proof data -/

/-- The arrays as the region finds them; after the body at point `t` the inputs' buffers at their blocks and the
    output's at the layer's value on that block of rows; the invariant above; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => k2_pay2 (blk2 V c 2 t) (hid2 V c)
  Φ t := inv2 V c t.val
  q _ := fullShare
  owed _ := 0

theorem A2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = k2_pay2 (blk2 V c 2 t) (hid2 V c) := by dsimp only [dat2]

/-- Input window 0's current buffer holds its block at every point, fetched there or not: an unfetched
    window's block index has not moved since the point that fetched it. -/
theorem found2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [A2]; try rfl) t d).trans
    (by unfold Dat.fetched Dat.blockOf blk2; rw [A2]; try rfl)

/-- Input window 1's current buffer holds its block at every point, fetched there or not: an unfetched
    window's block index has not moved since the point that fetched it. -/
theorem found2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [A2]; try rfl) t d).trans
    (by unfold Dat.fetched Dat.blockOf blk2; rw [A2]; try rfl)

/-- Input window 2's current buffer holds its block at every point, fetched there or not: an unfetched
    window's block index has not moved since the point that fetched it. -/
theorem found2_2 (c : Dev nD) (t : Fin cfg2.N) (d) : (dat2 V c).before 2 t d = blk2 V c 2 t :=
  ((dat2 V c).before_in_eq_fetched 2 rfl (fun _ => rfl) (fun _ _ _ => rfl)
    (fun t => by rw [after2_2]; unfold Dat.blockOf blk2; rw [A2]; try rfl) t d).trans
    (by unfold Dat.fetched Dat.blockOf blk2; rw [A2]; try rfl)

/-! ## The per-point obligation -/

set_option maxHeartbeats 4000000 in
/-- The body at any point.  At the first point the invariant hands over the scratch at anything and takes it
    back at h; at a later point it hands it over at h, the body only reads it, and it comes back at h. -/
theorem step2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d)))
      ⊢ wp frame (wpE (defs₀ (F := F)) Variants.none c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ owns (c : Thread nD τ) (st2_2 t) fullShare ((dat2 V c).after 2 t)
          ∗ owns (c : Thread nD τ) (st2_3 t) fullShare ((dat2 V c).after 3 t))) := by
  simp only [found2_0, found2_1, found2_2]
  rw [show (dat2 V c).owesAt () t.succ = (dat2 V c).owesAt () t.castSucc from rfl,
    after2_0, after2_1, after2_2, after2_3]
  rw [show (dat2 V c).Φ t.succ = inv2 V c (t.val + 1) from rfl,
    show (dat2 V c).Φ t.castSucc = inv2 V c t.val from rfl, inv2_pos V c (t.val + 1) (Nat.succ_ne_zero _)]
  by_cases hz : t.val = 0
  · rw [inv2_zero V c _ hz, hid2_at V c t hz]
    iintro ⟨⟨⟨HS, HR⟩, Hg⟩, Ho, ⟨%d0, H0⟩, ⟨%d1, H1⟩, ⟨%d2, H2⟩, ⟨%d3, H3⟩⟩
    iapply (run_first2 c Set.univ (grid2.coords t) _ _ _ _ _ _ _ _ _ _ ((first2_iff t).mpr hz) (blk2 V c 0 t) (blk2 V c 1 t) (blk2 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [inv2_pos V c _ hz]
    iintro ⟨⟨HS, HR, Hg⟩, Ho, ⟨%d0, H0⟩, ⟨%d1, H1⟩, ⟨%d2, H2⟩, ⟨%d3, H3⟩⟩
    iapply (run_later2 c Set.univ (grid2.coords t) _ _ _ _ _ _ _ _ _ _ (fun h => hz ((first2_iff t).mp h)) (blk2 V c 0 t) (blk2 V c 1 t) (blk2 V c 2 t) (hid2 V c) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3

/-- The pipeline's body obligation, at every point. -/
theorem obligation2 (c : Dev nD) : BodyObligation (dat2 (F := F) V c) (defs₀ (F := F)) Variants.none () Set.univ := fun t => by
  rw [bigSep_W2, bigSep_W2]
  exact step2 V c t

/-! ## The invariant at the region's two ends -/

/-- What the region is entered with is the invariant before the first point. -/
theorem enter2 (c : Dev nD) : Pipeline.ΦA spec2 c ⊢ (dat2 V c).Φ 0 := .rfl

/-- After the last point the invariant gives the scoped buffers back, the scratch's contents forgotten. -/
theorem leave2 (c : Dev nD) : (dat2 V c).Φ (Fin.last cfg2.N) ⊢ Pipeline.ΦA spec2 c := by
  rw [show (dat2 V c).Φ (Fin.last cfg2.N) = inv2 V c cfg2.N from rfl, inv2_pos V c _ (by decide)]
  unfold Pipeline.ΦA; rw [scoped2_eq]
  iintro ⟨HS, HR, Hg⟩
  isplitl [HS HR]
  · isplitl [HS]; · iexists _; iexact HS
    iexact HR
  iexact Hg

end Cert.Kernel.Layers

end
-- ==== Proof.WordLayerNet.lean ====
/-
  The whole program: three layers in a row, each a pipelined region, with nothing between them.

  The contents of the core's unscoped buffers are followed from the launch through the three regions: a region
  changes only the arrays of its output windows, and leaves there what its grid points wrote back.  Each region is
  given to the library's several-regions launch theorem as one record (its layout, its per-point obligation, and
  how the buffers enter and leave it), and the run's conclusion names every unscoped buffer's final contents.
  From that one run both the frame claim (the five argument arrays end as launched) and the value of the result
  array are read.
-/
import proofs.«149695_g32023276159196_cont_9to1_2195_4_alg».proof.Proof.WordLayerData0
import proofs.«149695_g32023276159196_cont_9to1_2195_4_alg».proof.Proof.WordLayerData1
import proofs.«149695_g32023276159196_cont_9to1_2195_4_alg».proof.Proof.WordLayerData2

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the four boundaries -/

/-- At launch. -/
abbrev atLaunch : Dev nD → Valuation τ sig (Elt F) := fun c b => m ((c : Dev nD), b)
/-- The same, read at the TensorCore's references: what layer 0 is entered with. -/
abbrev entry0 : (c : Dev nD) → (b : Ref sig .tc) → Buf (Elt F) ((c : Thread nD τ).loc b) := fun c b => atLaunch m c b

/-- After layer 0: the layer's arrays at what its write-backs leave (an input as it was entered, an output with
    every point's block written back), every other buffer as it was. -/
def after0 (c : Dev nD) : Valuation τ sig (Elt F) :=
  Pipeline.withArrays spec0 c (atLaunch m c) fun w => (dat0 (entry0 m) c).arrAt w cfg0.N
theorem after0_arr (c : Dev nD) (w : Fin cfg0.W) :
    after0 m c (Proc.devRef .tc (Pipeline.arrRef spec0 w)) = (dat0 (entry0 m) c).arrAt w cfg0.N := by
  unfold after0; exact Pipeline.withArrays_arr spec0 launch0.win.arr_inj c _ _ w
theorem after0_off (c : Dev nD) (b : Ref sig .tc) (hb : ∀ w, Pipeline.arrRef spec0 w ≠ b) :
    after0 m c (Proc.devRef .tc b) = atLaunch m c (Proc.devRef .tc b) := by
  unfold after0; exact Pipeline.withArrays_of_ne spec0 c _ _ b hb

abbrev entry1 : (c : Dev nD) → (b : Ref sig .tc) → Buf (Elt F) ((c : Thread nD τ).loc b) := fun c b => after0 m c b

/-- After layer 1: the layer's arrays at what its write-backs leave (an input as it was entered, an output with
    every point's block written back), every other buffer as it was. -/
def after1 (c : Dev nD) : Valuation τ sig (Elt F) :=
  Pipeline.withArrays spec1 c (after0 m c) fun w => (dat1 (entry1 m) c).arrAt w cfg1.N
theorem after1_arr (c : Dev nD) (w : Fin cfg1.W) :
    after1 m c (Proc.devRef .tc (Pipeline.arrRef spec1 w)) = (dat1 (entry1 m) c).arrAt w cfg1.N := by
  unfold after1; exact Pipeline.withArrays_arr spec1 launch1.win.arr_inj c _ _ w
theorem after1_off (c : Dev nD) (b : Ref sig .tc) (hb : ∀ w, Pipeline.arrRef spec1 w ≠ b) :
    after1 m c (Proc.devRef .tc b) = after0 m c (Proc.devRef .tc b) := by
  unfold after1; exact Pipeline.withArrays_of_ne spec1 c _ _ b hb

abbrev entry2 : (c : Dev nD) → (b : Ref sig .tc) → Buf (Elt F) ((c : Thread nD τ).loc b) := fun c b => after1 m c b

/-- After layer 2: the layer's arrays at what its write-backs leave (an input as it was entered, an output with
    every point's block written back), every other buffer as it was. -/
def after2 (c : Dev nD) : Valuation τ sig (Elt F) :=
  Pipeline.withArrays spec2 c (after1 m c) fun w => (dat2 (entry2 m) c).arrAt w cfg2.N
theorem after2_arr (c : Dev nD) (w : Fin cfg2.W) :
    after2 m c (Proc.devRef .tc (Pipeline.arrRef spec2 w)) = (dat2 (entry2 m) c).arrAt w cfg2.N := by
  unfold after2; exact Pipeline.withArrays_arr spec2 launch2.win.arr_inj c _ _ w
theorem after2_off (c : Dev nD) (b : Ref sig .tc) (hb : ∀ w, Pipeline.arrRef spec2 w ≠ b) :
    after2 m c (Proc.devRef .tc b) = after1 m c (Proc.devRef .tc b) := by
  unfold after2; exact Pipeline.withArrays_of_ne spec2 c _ _ b hb

abbrev exit2 : (c : Dev nD) → (b : Ref sig .tc) → Buf (Elt F) ((c : Thread nD τ).loc b) := fun c b => after2 m c b

/-! ## The three pipelines' proof data, and what rides along -/

/-- No pallas_call of the program has a prefetched table. -/
abbrev tables : (p : Fin 3) → (pcfgs (F := F) p).Adm := fun p => (cfgs p).toPCfg_adm

/-- Each layer's proof data at the contents its region is entered with. -/
def pdats : (p : Fin 3) → (c : Dev nD) → Dat τ (Elt F) Unit ℕ (UR sig nD τ) ℕ (Pipeline.pin (pcfgs (F := F)) tables p) c
  | ⟨0, _⟩ => fun c => dat0 (entry0 m) c
  | ⟨1, _⟩ => fun c => dat1 (entry1 m) c
  | ⟨2, _⟩ => fun c => dat2 (entry2 m) c

/-- No core owes another anything, so no level is assigned to any pair. -/
abbrev noPairs : GSem nD τ sig → Finset Unit := fun _ => ∅
abbrev noLevel : GSem nD τ sig → Unit → ℕ := fun _ _ => 0

/-- Beside the buffers a core carries its generator register, at some state, and the fact that it owes nothing. -/
abbrev rider (c : Dev nD) : sProp 𝕄 :=
  iprop((∃ r, prngReg c r) ∗ ∃ W, owes (c : Thread nD τ) (0 : CellTallies nD τ sig Unit) W)

/-! ## The layers as segments -/

set_option backward.isDefEq.respectTransparency.types false in
/-- Layer 0 as a segment of the program: entered with every unscoped buffer at `atLaunch`, left with them at `after0`.
    Going in, the layer's arrays are taken out of the unscoped buffers and the generator register joins the
    invariant; coming out, the arrays go back at what the write-backs left and the register is returned.
    The body owes no other core anything and has no semaphore of its own. -/
def layer0 : Pipeline.RegionSeg (pcfgs (F := F)) tables (pdats m) () defs₀ Variants.none noPairs noLevel 0 where
  win := launch0.win.to₀
  block_pos := launch0.block_pos
  stage_whole := launch0.stage_whole
  K := PEmpty
  osem k := k.elim
  ho := Pipeline.OwnSemFacts.none _
  hbody c := (obligation0 (entry0 m) c).loose
  hwaits := Pipeline.hwaits_of_owed_zero _ _ _ _ noPairs noLevel 0 fun _ _ => rfl
  pre c := iprop(StableHlo.held (c : Thread nD τ) (Pipeline.ucRefs τ sig) (atLaunch m c) ∗ rider c)
  post c := iprop(StableHlo.held (c : Thread nD τ) (Pipeline.ucRefs τ sig) (after0 m c) ∗ rider c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) tables (pdats m) launch0.win launch0.arr_whole c
      ((pdats m 0 c).share_full fun _ => rfl) (entry0 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr
      · ipureintro; exact fun _ _ => Or.inl trivial
      iexact Howes
    isplitl [Hreg]; · iexact Hreg
    iexact Hrest
  hin c := by
    rw [show (pdats m 0 c).Φ 0 = Pipeline.ΦA spec0 c from rfl]
    unfold Pipeline.ΦA
    iintro ⟨Hreg, -, Hscoped⟩
    isplitl [Hscoped]; · iexact Hscoped
    iexact Hreg
  hout c := by
    rw [Pipeline.ownSems0_none]
    refine (leave0 (entry0 m) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) tables (Ix := Unit) (Name := ℕ) (U := UR sig nD τ) (Lvl := ℕ)
      launch0.win launch0.arr_whole c (pdats m) ((pdats m 0 c).share_full fun _ => rfl)
      (entry0 m c) (entry1 m c) ((pdats m 0 c).arrAt · cfg0.N) (fun w => (after0_arr m c w).symm)
      (fun b hb => after0_off m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩
    iexists W; iexact Howes

set_option backward.isDefEq.respectTransparency.types false in
/-- Layer 1 as a segment of the program: entered with every unscoped buffer at `after0`, left with them at `after1`.
    Going in, the layer's arrays are taken out of the unscoped buffers and the generator register joins the
    invariant; coming out, the arrays go back at what the write-backs left and the register is returned.
    The body owes no other core anything and has no semaphore of its own. -/
def layer1 : Pipeline.RegionSeg (pcfgs (F := F)) tables (pdats m) () defs₀ Variants.none noPairs noLevel 1 where
  win := launch1.win.to₀
  block_pos := launch1.block_pos
  stage_whole := launch1.stage_whole
  K := PEmpty
  osem k := k.elim
  ho := Pipeline.OwnSemFacts.none _
  hbody c := (obligation1 (entry1 m) c).loose
  hwaits := Pipeline.hwaits_of_owed_zero _ _ _ _ noPairs noLevel 1 fun _ _ => rfl
  pre c := iprop(StableHlo.held (c : Thread nD τ) (Pipeline.ucRefs τ sig) (after0 m c) ∗ rider c)
  post c := iprop(StableHlo.held (c : Thread nD τ) (Pipeline.ucRefs τ sig) (after1 m c) ∗ rider c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) tables (pdats m) launch1.win launch1.arr_whole c
      ((pdats m 1 c).share_full fun _ => rfl) (entry1 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr
      · ipureintro; exact fun _ _ => Or.inl trivial
      iexact Howes
    isplitl [Hreg]; · iexact Hreg
    iexact Hrest
  hin c := by
    rw [show (pdats m 1 c).Φ 0 = Pipeline.ΦA spec1 c from rfl]
    unfold Pipeline.ΦA
    iintro ⟨Hreg, -, Hscoped⟩
    isplitl [Hscoped]; · iexact Hscoped
    iexact Hreg
  hout c := by
    rw [Pipeline.ownSems0_none]
    refine (leave1 (entry1 m) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) tables (Ix := Unit) (Name := ℕ) (U := UR sig nD τ) (Lvl := ℕ)
      launch1.win launch1.arr_whole c (pdats m) ((pdats m 1 c).share_full fun _ => rfl)
      (entry1 m c) (entry2 m c) ((pdats m 1 c).arrAt · cfg1.N) (fun w => (after1_arr m c w).symm)
      (fun b hb => after1_off m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩
    iexists W; iexact Howes

set_option backward.isDefEq.respectTransparency.types false in
/-- Layer 2 as a segment of the program: entered with every unscoped buffer at `after1`, left with them at `after2`.
    Going in, the layer's arrays are taken out of the unscoped buffers and the generator register joins the
    invariant; coming out, the arrays go back at what the write-backs left and the register is returned.
    The body owes no other core anything and has no semaphore of its own. -/
def layer2 : Pipeline.RegionSeg (pcfgs (F := F)) tables (pdats m) () defs₀ Variants.none noPairs noLevel 2 where
  win := launch2.win.to₀
  block_pos := launch2.block_pos
  stage_whole := launch2.stage_whole
  K := PEmpty
  osem k := k.elim
  ho := Pipeline.OwnSemFacts.none _
  hbody c := (obligation2 (entry2 m) c).loose
  hwaits := Pipeline.hwaits_of_owed_zero _ _ _ _ noPairs noLevel 2 fun _ _ => rfl
  pre c := iprop(StableHlo.held (c : Thread nD τ) (Pipeline.ucRefs τ sig) (after1 m c) ∗ rider c)
  post c := iprop((StableHlo.held (c : Thread nD τ) (Pipeline.ucRefs τ sig) (after2 m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    have hsplit := Pipeline.arrays_of_unscopedBufs (p := 2) (pcfgs (F := F)) tables (pdats m) launch2.win launch2.arr_whole c
      ((pdats m 2 c).share_full fun _ => rfl) (entry2 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr
      · ipureintro; exact fun _ _ => Or.inl trivial
      iexact Howes
    isplitl [Hreg]; · iexact Hreg
    iexact Hrest
  hin c := by
    rw [show (pdats m 2 c).Φ 0 = Pipeline.ΦA spec2 c from rfl]
    unfold Pipeline.ΦA
    iintro ⟨Hreg, -, Hscoped⟩
    isplitl [Hscoped]; · iexact Hscoped
    iexact Hreg
  hout c := by
    rw [Pipeline.ownSems0_none]
    refine (leave2 (entry2 m) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) tables (Ix := Unit) (Name := ℕ) (U := UR sig nD τ) (Lvl := ℕ)
      launch2.win launch2.arr_whole c (pdats m) ((pdats m 2 c).share_full fun _ => rfl)
      (entry2 m c) (exit2 m c) ((pdats m 2 c).arrAt · cfg2.N) (fun w => (after2_arr m c w).symm)
      (fun b hb => after2_off m c b fun w e => hb (Finset.mem_image.mpr ⟨w, Finset.mem_univ _, e⟩))
    rw [Pipeline.unscopedBufs_held] at hjoin
    iintro ⟨Harr, Howes, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Howes with ⟨%W, -, Howes⟩
    iexists W; iexact Howes

/-! ## The run -/

/-- The program is its three regions in order. -/
abbrev netSegs : List (Pipeline.Seg (pcfgs (F := F)) tables (pdats m) () defs₀ Variants.none noPairs noLevel) :=
  [.region (layer0 m), .region (layer1 m), .region (layer2 m)]

theorem main_is_net (c : Dev nD) : main (F := F) c = Pipeline.Seg.run (netSegs m) :=
  main_segs tables (pdats m) () Variants.none noPairs noLevel (layer0 m) (layer1 m) (layer2 m) c

set_option backward.isDefEq.respectTransparency.types false in
/-- From any memory with the semaphores at zero, every weakly fair execution of the program terminates without a
    fault, and in the final memory every unscoped buffer of every core holds what `after2` says. -/
theorem net_run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = after2 m c b) :=
  Pipeline.θ_run_regions_kit (pcfgs (F := F)) tables (pdats m) () cellOf_inj emb₁ defs₀ Variants.none noPairs noLevel m ρ main (netSegs m)
    (fun c Q => by rw [main_is_net m c])
    (by simp only [netSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ rider c))
    (Tₙ := fun c => iprop(StableHlo.held (c : Thread nD τ) (Pipeline.ucRefs τ sig) (after2 m c) ∗ ∃ r, prngReg c r))
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = after2 m c b)
    (hfin := fun c s' => by
      iintro ⟨⟨Hbufs, -⟩, HSI⟩
      unfold StableHlo.held
      imodintro
      iapply (pointsTo_read_all (Pipeline.ucRefs τ sig) (fun b => (((c : Thread nD τ)).1, b)) (after2 m c) s')
      isplitl [Hbufs] <;> iassumption)
    (hQ := fun s h c => h c)

/-- An unscoped TensorCore reference is one of those the run names. -/
theorem named (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Layers

end
-- ==== Proof.WordLayerEnds.lean ====
/-
  The five argument arrays end as launched.

  No region writes an argument: each argument is either an input window of a region (whose array the write-backs never
  touch) or bypasses the region altogether.  So the contents `after2` gives an argument's buffer walk back, region by
  region, to the launch memory; with the run's conclusion this is the frame claim.
-/
import proofs.«149695_g32023276159196_cont_9to1_2195_4_alg».proof.Proof.WordLayerNet

set_option maxRecDepth 16384

noncomputable section

namespace Cert.Kernel.Layers

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- The features: input window 0 of layer 0, bypassing layers 1 and 2. -/
theorem kept_arg0 (c : Dev nD) : after2 m c (Proc.devRef .tc main_arg0) = m ((c : Thread nD τ).loc main_arg0) :=
  calc after2 m c (Proc.devRef .tc main_arg0)
    _ = after1 m c (Proc.devRef .tc main_arg0) := after2_off m c main_arg0 (by decide)
    _ = after0 m c (Proc.devRef .tc main_arg0) := after1_off m c main_arg0 (by decide)
    _ = (dat0 (entry0 m) c).arrAt 0 cfg0.N := after0_arr m c 0
    _ = m ((c : Thread nD τ).loc main_arg0) := ((dat0 (entry0 m) c).arrAt_in 0 rfl _).trans (A0 (entry0 m) c 0)

/-- The adjacency: input window 2 of layer 0, bypassing layers 1 and 2 (which read its narrowed copy). -/
theorem kept_arg1 (c : Dev nD) : after2 m c (Proc.devRef .tc main_arg1) = m ((c : Thread nD τ).loc main_arg1) :=
  calc after2 m c (Proc.devRef .tc main_arg1)
    _ = after1 m c (Proc.devRef .tc main_arg1) := after2_off m c main_arg1 (by decide)
    _ = after0 m c (Proc.devRef .tc main_arg1) := after1_off m c main_arg1 (by decide)
    _ = (dat0 (entry0 m) c).arrAt 2 cfg0.N := after0_arr m c 2
    _ = m ((c : Thread nD τ).loc main_arg1) := ((dat0 (entry0 m) c).arrAt_in 2 rfl _).trans (A0 (entry0 m) c 2)

/-- The first weights: input window 1 of layer 0. -/
theorem kept_arg2 (c : Dev nD) : after2 m c (Proc.devRef .tc main_arg2) = m ((c : Thread nD τ).loc main_arg2) :=
  calc after2 m c (Proc.devRef .tc main_arg2)
    _ = after1 m c (Proc.devRef .tc main_arg2) := after2_off m c main_arg2 (by decide)
    _ = after0 m c (Proc.devRef .tc main_arg2) := after1_off m c main_arg2 (by decide)
    _ = (dat0 (entry0 m) c).arrAt 1 cfg0.N := after0_arr m c 1
    _ = m ((c : Thread nD τ).loc main_arg2) := ((dat0 (entry0 m) c).arrAt_in 1 rfl _).trans (A0 (entry0 m) c 1)

/-- The second weights: input window 1 of layer 1, bypassing layers 0 and 2. -/
theorem kept_arg3 (c : Dev nD) : after2 m c (Proc.devRef .tc main_arg3) = m ((c : Thread nD τ).loc main_arg3) :=
  calc after2 m c (Proc.devRef .tc main_arg3)
    _ = after1 m c (Proc.devRef .tc main_arg3) := after2_off m c main_arg3 (by decide)
    _ = (dat1 (entry1 m) c).arrAt 1 cfg1.N := after1_arr m c 1
    _ = after0 m c (Proc.devRef .tc main_arg3) := ((dat1 (entry1 m) c).arrAt_in 1 rfl _).trans (A1 (entry1 m) c 1)
    _ = m ((c : Thread nD τ).loc main_arg3) := after0_off m c main_arg3 (by decide)

/-- The third weights: input window 1 of layer 2, bypassing layers 0 and 1. -/
theorem kept_arg4 (c : Dev nD) : after2 m c (Proc.devRef .tc main_arg4) = m ((c : Thread nD τ).loc main_arg4) :=
  calc after2 m c (Proc.devRef .tc main_arg4)
    _ = (dat2 (entry2 m) c).arrAt 1 cfg2.N := after2_arr m c 1
    _ = after1 m c (Proc.devRef .tc main_arg4) := ((dat2 (entry2 m) c).arrAt_in 1 rfl _).trans (A2 (entry2 m) c 1)
    _ = after0 m c (Proc.devRef .tc main_arg4) := after1_off m c main_arg4 (by decide)
    _ = m ((c : Thread nD τ).loc main_arg4) := after0_off m c main_arg4 (by decide)

/-- THE FRAME, at any float interpretation: the program runs to the end without a fault and the five argument arrays
    hold what they were launched with. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (named main_arg0 (by decide))).trans (kept_arg0 m c),
     (h c _ (named main_arg1 (by decide))).trans (kept_arg1 m c),
     (h c _ (named main_arg2 (by decide))).trans (kept_arg2 m c),
     (h c _ (named main_arg3 (by decide))).trans (kept_arg3 m c),
     (h c _ (named main_arg4 (by decide))).trans (kept_arg4 m c)⟩) (net_run m ρ)

end Cert.Kernel.Layers

end
-- ==== Proof.LayerRun0.lean ====
/-
  Layer 0 of the network as one pipelined region: relu(adj · (x · W)) computed a block of 400 rows at a time.

  The body keeps h = x · W (rounded to the storage format) in a scratch buffer.  At the first grid point it
  computes h from the two operands that are staged whole and stores it; at every point it multiplies the
  point's block of 400 adjacency rows by the scratch and stores max(·, 0) into the point's output block,
  and it also stores the adjacency block itself, in the narrower format, into a second output.
  So the scratch holds the same array after every point, and no output block depends on an earlier one.

  This file states that as two runs of the body (the first point; any later point, where the scratch is
  only read), names what every buffer holds after each point, and proves the per-point obligation of the
  pipeline from them.  Everything is stated for any float interpretation F and for arbitrary contents V of
  the core's buffers when the region is entered.
-/
import proofs.«149695_g32023276159196_cont_9to1_2195_4_alg».proof.Proof.Gen.KernelIdeal.Launch
import proofs.«149695_g32023276159196_cont_9to1_2195_4_alg».proof.Proof.Gen.KernelIdeal.Skeleton
import proofs.«149695_g32023276159196_cont_9to1_2195_4_alg».proof.Proof.Gen.KernelIdeal.Points
import proofs.«149695_g32023276159196_cont_9to1_2195_4_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch: "this is the first grid point" -/

/-- The body's test `program_id(0) == 0`, as the scalar chain it is printed with. -/
abbrev first0 (i : grid0.Coords) : Prop :=
  (Scalar.cmpi .ne (Scalar.extui (Scalar.cmpi .eq (BitVec.ofNat 32 (i 0).val) 0#32)) 0#32) = 1#1

/-- Over the 25 points of the grid the test holds at point 0 and nowhere else. -/
theorem first0_iff : ∀ t : Fin cfg0.N, first0 (grid0.coords t) ↔ t.val = 0 :=
  (by decide +kernel : ∀ t : Fin grid0.N, first0 (grid0.coords t) ↔ t.val = 0)

/-! ## The body, run once in each case -/

set_option maxHeartbeats 2000000 in
/-- FIRST POINT.  With x, W and the adjacency block a in the input buffers, the body leaves h = k0_pay1 x W in
    the scratch, k0_pay3 a h in the output block, the narrowed block k0_pay2 a in the second output, and the inputs as they were. -/
theorem run_first0 (c : Dev nD) (E : Set ℕ) (i : grid0.Coords)
    (arg1 : Memref sig .tc .vmem S10000x128 .f32) (harg1 : arg1.IsWhole) (arg2 : Memref sig .tc .vmem S128x64 .f32) (harg2 : arg2.IsWhole)
    (arg3 : Memref sig .tc .vmem S400x10000 .f32) (harg3 : arg3.IsWhole) (arg4 : Memref sig .tc .vmem S400x64 .f32) (harg4 : arg4.IsWhole)
    (arg5 : Memref sig .tc .vmem S400x10000 .bf16) (harg5 : arg5.IsWhole) (arg6 : Memref sig .tc .vmem S10000x64 .bf16) (harg6 : arg6.IsWhole)
    (hc : first0 i) (x : Vec F S10000x128 .f32) (w : Vec F S128x64 .f32) (a : Vec F S400x10000 .f32) (Kont : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare a
            ∗ owns (c : Thread nD τ) arg4 fullShare (k0_pay3 a (k0_pay1 x w)) ∗ owns (c : Thread nD τ) arg5 fullShare (k0_pay2 a)
            ∗ owns (c : Thread nD τ) arg6 fullShare (k0_pay1 x w)) -∗ Kont ⟨⟩))
      ⊢ wp frame (wpE (defs₀ (F := F)) Variants.none c none) E (cc0__layer1_kernel i arg1 harg1 arg2 harg2 arg3 harg3 arg4 harg4 arg5 harg5 arg6 harg6) Kont := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, ⟨%d4, %f4, -, H4⟩, ⟨%dS, %fS, -, H5⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2, View.readCov_unit_zero (S := S10000x64) _ WholeStore.zero2]
  isplitl [H4]
  · iexists _; isplitr
    swap; · iexact H4
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2]
  · iexists _; isplitr
    swap; · iexact H5
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2]

set_option maxHeartbeats 2000000 in
/-- A LATER POINT.  The scratch holds some array h and is only read: the body leaves k0_pay3 a h in the output
    block, k0_pay2 a in the second output, and the inputs and the scratch as they were. -/
theorem run_later0 (c : Dev nD) (E : Set ℕ) (i : grid0.Coords)
    (arg1 : Memref sig .tc .vmem S10000x128 .f32) (harg1 : arg1.IsWhole) (arg2 : Memref sig .tc .vmem S128x64 .f32) (harg2 : arg2.IsWhole)
    (arg3 : Memref sig .tc .vmem S400x10000 .f32) (harg3 : arg3.IsWhole) (arg4 : Memref sig .tc .vmem S400x64 .f32) (harg4 : arg4.IsWhole)
    (arg5 : Memref sig .tc .vmem S400x10000 .bf16) (harg5 : arg5.IsWhole) (arg6 : Memref sig .tc .vmem S10000x64 .bf16) (harg6 : arg6.IsWhole)
    (hc : ¬ first0 i) (x : Vec F S10000x128 .f32) (w : Vec F S128x64 .f32) (a : Vec F S400x10000 .f32) (h : Vec F S10000x64 .bf16) (Kont : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d) ∗ owns (c : Thread nD τ) arg6 fullShare h
        ∗ (iprop(owns (c : Thread nD τ) arg1 fullShare x ∗ owns (c : Thread nD τ) arg2 fullShare w ∗ owns (c : Thread nD τ) arg3 fullShare a
            ∗ owns (c : Thread nD τ) arg4 fullShare (k0_pay3 a h) ∗ owns (c : Thread nD τ) arg5 fullShare (k0_pay2 a)
            ∗ owns (c : Thread nD τ) arg6 fullShare h) -∗ Kont ⟨⟩))
      ⊢ wp frame (wpE (defs₀ (F := F)) Variants.none c none) E (cc0__layer1_kernel i arg1 harg1 arg2 harg2 arg3 harg3 arg4 harg4 arg5 harg5 arg6 harg6) Kont := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fS, %hfS, H5⟩, Hk⟩
  obtain rfl := harg1.eq_unread hf0; obtain rfl := harg2.eq_unread hf1; obtain rfl := harg3.eq_unread hf2; obtain rfl := harg6.eq_unread hfS
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2, WholeStore.load_whole harg6 WholeStore.zero2]
  isplitl [H4]
  · iexists _; isplitr
    swap; · iexact H4
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2]
  · iexists _; isplitr; · ipureintro; exact harg6.read_unread _
    iexact H5

end Cert.KernelIdeal.Layers

end
-- ==== Proof.LayerData0.lean ====
/-
  Layer 0: what every buffer holds after each grid point, and the pipeline's per-point obligation.

  Windows 0 and 1 stage x and W whole (their block is the whole array at every point); window 2 stages the
  point's 400 rows of the adjacency; window 3 is the point's 400 rows of the output; window 4 the same rows of
  the adjacency in the narrower format.  After the body at point t the inputs' buffers still hold their
  blocks, the output's holds k0_pay3 (rows t of adj) h, the second output's holds k0_pay2 (rows t of adj),
  where h = k0_pay1 x W is what the scratch holds from the first point on.  The region's invariant says
  exactly that about the scratch: anything before the first point, h after every point.
-/
import proofs.«149695_g32023276159196_cont_9to1_2195_4_alg».proof.Proof.LayerRun0

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## Blocks, and the array the scratch holds -/

/-- Window `w`'s block at point `t`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev origin0 : Fin cfg0.N := ⟨0, by decide⟩

/-- h = x · W in the storage format, from the blocks of windows 0 and 1 at the first point (which are the whole arrays). -/
def hid0 (c : Dev nD) : Vec F S10000x64 .bf16 := k0_pay1 (blk0 V c 0 origin0) (blk0 V c 1 origin0)

/-- At the first point, h is computed from that point's blocks. -/
theorem hid0_at (c : Dev nD) (t : Fin cfg0.N) (hz : t.val = 0) : hid0 V c = k0_pay1 (blk0 V c 0 t) (blk0 V c 1 t) := by
  obtain rfl : t = origin0 := Fin.ext hz
  rfl

/-! ## The invariant: what the scratch holds between points -/

/-- The scratch as a whole-buffer memref. -/
abbrev scratch0 : Memref sig .tc .vmem S10000x64 .bf16 := Memref.whole cc0_scratch0

/-- The core's other scoped buffers that are no staging buffer of this call: untouched by the body. -/
abbrev others0 (c : Dev nD) : sProp 𝕄 :=
  Pipeline.scopedRestBut (Ix := Unit) (Name := ℕ) (U := UR sig nD τ) (Lvl := ℕ) (Val := Elt F) spec0 c [cc0_scratch0]

/-- The scoped buffers the body may use: the scratch, at some contents, beside the others. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) (scratch0) fullShare d) ∗ others0 c) := by
  rw [Pipeline.scopedRest_split_of_list spec0 c [cc0_scratch0] (by decide) (by decide)]
  simp only [scratch0, owns_whole, bigSepL]
  rfl

/-- Before point `n`: nothing is known of the scratch before the first point; afterwards it holds h. -/
def inv0 (c : Dev nD) : ℕ → sProp 𝕄
  | 0 => Pipeline.ΦA spec0 c
  | _ + 1 => iprop(owns (c : Thread nD τ) scratch0 fullShare (hid0 V c) ∗ others0 c ∗ ∃ r, prngReg c r)

theorem inv0_zero (c : Dev nD) (n : ℕ) (hz : n = 0) :
    inv0 V c n = iprop(((∃ d, owns (c : Thread nD τ) scratch0 fullShare d) ∗ others0 c) ∗ ∃ r, prngReg c r) := by
  subst hz
  show Pipeline.ΦA spec0 c = _
  unfold Pipeline.ΦA; rw [scoped0_eq]

theorem inv0_pos (c : Dev nD) (n : ℕ) (hn : n ≠ 0) :
    inv0 V c n = iprop(owns (c : Thread nD τ) scratch0 fullShare (hid0 V c) ∗ others0 c ∗ ∃ r, prngReg c r) := by
  cases n with
  | zero => exact absurd rfl hn
  | succ n => rfl

/-! ## The proof data -/

/-- The arrays as the region finds them; after the body at point `t` the inputs' buffers at their blocks and the
    outputs' at the layer's value on that block of rows; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay3 (blk0 V c 2 t) (hid0 V c)
    | ⟨4, _⟩ => k0_pay2 (blk0 V c 2 t)
  Φ t := inv0 V c t.val
  q _ := fullShare
  owed _ := 0

theorem A0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = k0_pay3 (blk0 V c 2 t) (hid0 V c) := by dsimp only [dat0]
theorem after0_4 (c : Dev nD) (t : Fin cfg0.N) : (dat0 V c).after 4 t = k0_pay2 (blk0 V c 2 t) := by dsimp only [dat0]

/-- Input window 0's current buffer holds its block at every point, fetched there or not: an unfetched
    window's block index has not moved since the point that fetched it. -/
theorem found0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A0]; try rfl) t d).trans
    (by unfold Dat.fetched Dat.blockOf blk0; rw [A0]; try rfl)

/-- Input window 1's current buffer holds its block at every point, fetched there or not: an unfetched
    window's block index has not moved since the point that fetched it. -/
theorem found0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A0]; try rfl) t d).trans
    (by unfold Dat.fetched Dat.blockOf blk0; rw [A0]; try rfl)

/-- Input window 2's current buffer holds its block at every point, fetched there or not: an unfetched
    window's block index has not moved since the point that fetched it. -/
theorem found0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A0]; try rfl) t d).trans
    (by unfold Dat.fetched Dat.blockOf blk0; rw [A0]; try rfl)

/-! ## The per-point obligation -/

set_option maxHeartbeats 4000000 in
/-- The body at any point.  At the first point the invariant hands over the scratch at anything and takes it
    back at h; at a later point it hands it over at h, the body only reads it, and it comes back at h. -/
theorem step0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d)))
      ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t)
          ∗ owns (c : Thread nD τ) (st0_4 t) fullShare ((dat0 V c).after 4 t))) := by
  simp only [found0_0, found0_1, found0_2]
  rw [show (dat0 V c).owesAt () t.succ = (dat0 V c).owesAt () t.castSucc from rfl,
    after0_0, after0_1, after0_2, after0_3, after0_4]
  rw [show (dat0 V c).Φ t.succ = inv0 V c (t.val + 1) from rfl,
    show (dat0 V c).Φ t.castSucc = inv0 V c t.val from rfl, inv0_pos V c (t.val + 1) (Nat.succ_ne_zero _)]
  by_cases hz : t.val = 0
  · rw [inv0_zero V c _ hz, hid0_at V c t hz]
    iintro ⟨⟨⟨HS, HR⟩, Hg⟩, Ho, ⟨%d0, H0⟩, ⟨%d1, H1⟩, ⟨%d2, H2⟩, ⟨%d3, H3⟩, ⟨%d4, H4⟩⟩
    iapply (run_first0 c Set.univ (grid0.coords t) _ _ _ _ _ _ _ _ _ _ _ _ ((first0_iff t).mpr hz) (blk0 V c 0 t) (blk0 V c 1 t) (blk0 V c 2 t) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexact H4
  · rw [inv0_pos V c _ hz]
    iintro ⟨⟨HS, HR, Hg⟩, Ho, ⟨%d0, H0⟩, ⟨%d1, H1⟩, ⟨%d2, H2⟩, ⟨%d3, H3⟩, ⟨%d4, H4⟩⟩
    iapply (run_later0 c Set.univ (grid0.coords t) _ _ _ _ _ _ _ _ _ _ _ _ (fun h => hz ((first0_iff t).mp h)) (blk0 V c 0 t) (blk0 V c 1 t) (blk0 V c 2 t) (hid0 V c) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexact H4

/-- The pipeline's body obligation, at every point. -/
theorem obligation0 (c : Dev nD) : BodyObligation (dat0 (F := F) V c) (defs₀ (F := F)) Variants.none () Set.univ := fun t => by
  rw [bigSep_W0, bigSep_W0]
  exact step0 V c t

/-! ## The invariant at the region's two ends -/

/-- What the region is entered with is the invariant before the first point. -/
theorem enter0 (c : Dev nD) : Pipeline.ΦA spec0 c ⊢ (dat0 V c).Φ 0 := .rfl

/-- After the last point the invariant gives the scoped buffers back, the scratch's contents forgotten. -/
theorem leave0 (c : Dev nD) : (dat0 V c).Φ (Fin.last cfg0.N) ⊢ Pipeline.ΦA spec0 c := by
  rw [show (dat0 V c).Φ (Fin.last cfg0.N) = inv0 V c cfg0.N from rfl, inv0_pos V c _ (by decide)]
  unfold Pipeline.ΦA; rw [scoped0_eq]
  iintro ⟨HS, HR, Hg⟩
  isplitl [HS HR]
  · isplitl [HS]; · iexists _; iexact HS
    iexact HR
  iexact Hg

end Cert.KernelIdeal.Layers

end
-- ==== Proof.LayerRun1.lean ====
/-
  Layer 1 of the network as one pipelined region: relu(adj · (x · W)) computed a block of 400 rows at a time.

  The body keeps h = x · W (rounded to the storage format) in a scratch buffer.  At the first grid point it
  computes h from the two operands that are staged whole and stores it; at every point it multiplies the
  point's block of 400 adjacency rows by the scratch and stores max(·, 0) into the point's output block.
  So the scratch holds the same array after every point, and no output block depends on an earlier one.

  This file states that as two runs of the body (the first point; any later point, where the scratch is
  only read), names what every buffer holds after each point, and proves the per-point obligation of the
  pipeline from them.  Everything is stated for any float interpretation F and for arbitrary contents V of
  the core's buffers when the region is entered.
-/
import proofs.«149695_g32023276159196_cont_9to1_2195_4_alg».proof.Proof.Gen.KernelIdeal.Launch
import proofs.«149695_g32023276159196_cont_9to1_2195_4_alg».proof.Proof.Gen.KernelIdeal.Skeleton
import proofs.«149695_g32023276159196_cont_9to1_2195_4_alg».proof.Proof.Gen.KernelIdeal.Points
import proofs.«149695_g32023276159196_cont_9to1_2195_4_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch: "this is the first grid point" -/

/-- The body's test `program_id(0) == 0`, as the scalar chain it is printed with. -/
abbrev first1 (i : grid1.Coords) : Prop :=
  (Scalar.cmpi .ne (Scalar.extui (Scalar.cmpi .eq (BitVec.ofNat 32 (i 0).val) 0#32)) 0#32) = 1#1

/-- Over the 25 points of the grid the test holds at point 0 and nowhere else. -/
theorem first1_iff : ∀ t : Fin cfg1.N, first1 (grid1.coords t) ↔ t.val = 0 :=
  (by decide +kernel : ∀ t : Fin grid1.N, first1 (grid1.coords t) ↔ t.val = 0)

/-! ## The body, run once in each case -/

set_option maxHeartbeats 2000000 in
/-- FIRST POINT.  With x, W and the adjacency block a in the input buffers, the body leaves h = k1_pay1 x W in
    the scratch, k1_pay2 a h in the output block, and the inputs as they were. -/
theorem run_first1 (c : Dev nD) (E : Set ℕ) (i : grid1.Coords)
    (arg1 : Memref sig .tc .vmem S10000x64 .f32) (harg1 : arg1.IsWhole) (arg2 : Memref sig .tc .vmem S64x64 .f32) (harg2 : arg2.IsWhole)
    (arg3 : Memref sig .tc .vmem S400x10000 .bf16) (harg3 : arg3.IsWhole) (arg4 : Memref sig .tc .vmem S400x64 .f32) (harg4 : arg4.IsWhole)
    (arg5 : Memref sig .tc .vmem S10000x64 .bf16) (harg5 : arg5.IsWhole)
    (hc : first1 i) (x : Vec F S10000x64 .f32) (w : Vec F S64x64 .f32) (a : Vec F S400x10000 .bf16) (Kont : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (k1_pay2 a (k1_pay1 x w))
            ∗ owns (c : Thread nD τ) arg5 fullShare (k1_pay1 x w)) -∗ Kont ⟨⟩))
      ⊢ wp frame (wpE (defs₀ (F := F)) Variants.none c none) E (cc1__layer_kernel i arg1 harg1 arg2 harg2 arg3 harg3 arg4 harg4 arg5 harg5) Kont := by
  simp only [cc1__layer_kernel_eq_skeleton]; unfold cc1__layer_kernel_skel
  unfold owns
  iintro ⟨⟨%f0, %hf0, H0⟩, ⟨%f1, %hf1, H1⟩, ⟨%f2, %hf2, H2⟩, ⟨%d3, %f3, -, H3⟩, ⟨%dS, %fS, -, H4⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2, View.readCov_unit_zero (S := S10000x64) _ WholeStore.zero2]
  · iexists _; isplitr
    swap; · iexact H4
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2]

set_option maxHeartbeats 2000000 in
/-- A LATER POINT.  The scratch holds some array h and is only read: the body leaves k1_pay2 a h in the output
    block, and the inputs and the scratch as they were. -/
theorem run_later1 (c : Dev nD) (E : Set ℕ) (i : grid1.Coords)
    (arg1 : Memref sig .tc .vmem S10000x64 .f32) (harg1 : arg1.IsWhole) (arg2 : Memref sig .tc .vmem S64x64 .f32) (harg2 : arg2.IsWhole)
    (arg3 : Memref sig .tc .vmem S400x10000 .bf16) (harg3 : arg3.IsWhole) (arg4 : Memref sig .tc .vmem S400x64 .f32) (harg4 : arg4.IsWhole)
    (arg5 : Memref sig .tc .vmem S10000x64 .bf16) (harg5 : arg5.IsWhole)
    (hc : ¬ first1 i) (x : Vec F S10000x64 .f32) (w : Vec F S64x64 .f32) (a : Vec F S400x10000 .bf16) (h : Vec F S10000x64 .bf16) (Kont : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ owns (c : Thread nD τ) arg5 fullShare h
        ∗ (iprop(owns (c : Thread nD τ) arg1 fullShare x ∗ owns (c : Thread nD τ) arg2 fullShare w ∗ owns (c : Thread nD τ) arg3 fullShare a
            ∗ owns (c : Thread nD τ) arg4 fullShare (k1_pay2 a h)
            ∗ owns (c : Thread nD τ) arg5 fullShare h) -∗ Kont ⟨⟩))
      ⊢ wp frame (wpE (defs₀ (F := F)) Variants.none c none) E (cc1__layer_kernel i arg1 harg1 arg2 harg2 arg3 harg3 arg4 harg4 arg5 harg5) Kont := by
  simp only [cc1__layer_kernel_eq_skeleton]; unfold cc1__layer_kernel_skel
  unfold owns
  iintro ⟨⟨%f0, %hf0, H0⟩, ⟨%f1, %hf1, H1⟩, ⟨%f2, %hf2, H2⟩, ⟨%d3, %f3, -, H3⟩, ⟨%fS, %hfS, H4⟩, Hk⟩
  obtain rfl := harg1.eq_unread hf0; obtain rfl := harg2.eq_unread hf1; obtain rfl := harg3.eq_unread hf2; obtain rfl := harg5.eq_unread hfS
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    simp only [WholeStore.read_store (S := S400x64) _ _ WholeStore.zero2, WholeStore.read_store (S := S10000x64) _ _ WholeStore.zero2, WholeStore.read_store (S := S400x10000) _ _ WholeStore.zero2, WholeStore.load_whole harg1 WholeStore.zero2, WholeStore.load_whole harg2 WholeStore.zero2, WholeStore.load_whole harg3 WholeStore.zero2, WholeStore.load_whole harg5 WholeStore.zero2]
  · iexists _; isplitr; · ipureintro; exact harg5.read_unread _
    iexact H4

end Cert.KernelIdeal.Layers

end
-- ==== Proof.LayerData1.lean ====
/-
  Layer 1: what every buffer holds after each grid point, and the pipeline's per-point obligation.

  Windows 0 and 1 stage x and W whole (their block is the whole array at every point); window 2 stages the
  point's 400 rows of the adjacency; window 3 is the point's 400 rows of the output.  After the body at point t the inputs' buffers still hold their
  blocks, the output's holds k1_pay2 (rows t of adj) h,
  where h = k1_pay1 x W is what the scratch holds from the first point on.  The region's invariant says
  exactly that about the scratch: anything before the first point, h after every point.
-/
import proofs.«149695_g32023276159196_cont_9to1_2195_4_alg».proof.Proof.LayerRun1

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## Blocks, and the array the scratch holds -/

/-- Window `w`'s block at point `t`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
abbrev origin1 : Fin cfg1.N := ⟨0, by decide⟩

/-- h = x · W in the storage format, from the blocks of windows 0 and 1 at the first point (which are the whole arrays). -/
def hid1 (c : Dev nD) : Vec F S10000x64 .bf16 := k1_pay1 (blk1 V c 0 origin1) (blk1 V c 1 origin1)

/-- At the first point, h is computed from that point's blocks. -/
theorem hid1_at (c : Dev nD) (t : Fin cfg1.N) (hz : t.val = 0) : hid1 V c = k1_pay1 (blk1 V c 0 t) (blk1 V c 1 t) := by
  obtain rfl : t = origin1 := Fin.ext hz
  rfl

/-! ## The invariant: what the scratch holds between points -/

/-- The scratch as a whole-buffer memref. -/
abbrev scratch1 : Memref sig .tc .vmem S10000x64 .bf16 := Memref.whole cc1_scratch0

/-- The core's other scoped buffers that are no staging buffer of this call: untouched by the body. -/
abbrev others1 (c : Dev nD) : sProp 𝕄 :=
  Pipeline.scopedRestBut (Ix := Unit) (Name := ℕ) (U := UR sig nD τ) (Lvl := ℕ) (Val := Elt F) spec1 c [cc1_scratch0]

/-- The scoped buffers the body may use: the scratch, at some contents, beside the others. -/
theorem scoped1_eq (c : Dev nD) :
    (Pipeline.scopedRest (Ix := Unit) (Name := ℕ) (U := UR sig nD τ) (Lvl := ℕ) (Val := Elt F) spec1 c : sProp 𝕄)
      = iprop((∃ d, owns (c : Thread nD τ) (scratch1) fullShare d) ∗ others1 c) := by
  rw [Pipeline.scopedRest_split_of_list spec1 c [cc1_scratch0] (by decide) (by decide)]
  simp only [scratch1, owns_whole, bigSepL]
  rfl

/-- Before point `n`: nothing is known of the scratch before the first point; afterwards it holds h. -/
def inv1 (c : Dev nD) : ℕ → sProp 𝕄
  | 0 => Pipeline.ΦA spec1 c
  | _ + 1 => iprop(owns (c : Thread nD τ) scratch1 fullShare (hid1 V c) ∗ others1 c ∗ ∃ r, prngReg c r)

theorem inv1_zero (c : Dev nD) (n : ℕ) (hz : n = 0) :
    inv1 V c n = iprop(((∃ d, owns (c : Thread nD τ) scratch1 fullShare d) ∗ others1 c) ∗ ∃ r, prngReg c r) := by
  subst hz
  show Pipeline.ΦA spec1 c = _
  unfold Pipeline.ΦA; rw [scoped1_eq]

theorem inv1_pos (c : Dev nD) (n : ℕ) (hn : n ≠ 0) :
    inv1 V c n = iprop(owns (c : Thread nD τ) scratch1 fullShare (hid1 V c) ∗ others1 c ∗ ∃ r, prngReg c r) := by
  cases n with
  | zero => exact absurd rfl hn
  | succ n => rfl

/-! ## The proof data -/

/-- The arrays as the region finds them; after the body at point `t` the inputs' buffers at their blocks and the
    output's at the layer's value on that block of rows; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay2 (blk1 V c 2 t) (hid1 V c)
  Φ t := inv1 V c t.val
  q _ := fullShare
  owed _ := 0

theorem A1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = k1_pay2 (blk1 V c 2 t) (hid1 V c) := by dsimp only [dat1]

/-- Input window 0's current buffer holds its block at every point, fetched there or not: an unfetched
    window's block index has not moved since the point that fetched it. -/
theorem found1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A1]; try rfl) t d).trans
    (by unfold Dat.fetched Dat.blockOf blk1; rw [A1]; try rfl)

/-- Input window 1's current buffer holds its block at every point, fetched there or not: an unfetched
    window's block index has not moved since the point that fetched it. -/
theorem found1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A1]; try rfl) t d).trans
    (by unfold Dat.fetched Dat.blockOf blk1; rw [A1]; try rfl)

/-- Input window 2's current buffer holds its block at every point, fetched there or not: an unfetched
    window's block index has not moved since the point that fetched it. -/
theorem found1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A1]; try rfl) t d).trans
    (by unfold Dat.fetched Dat.blockOf blk1; rw [A1]; try rfl)

/-! ## The per-point obligation -/

set_option maxHeartbeats 4000000 in
/-- The body at any point.  At the first point the invariant hands over the scratch at anything and takes it
    back at h; at a later point it hands it over at h, the body only reads it, and it comes back at h. -/
theorem step1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
      ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t))) := by
  simp only [found1_0, found1_1, found1_2]
  rw [show (dat1 V c).owesAt () t.succ = (dat1 V c).owesAt () t.castSucc from rfl,
    after1_0, after1_1, after1_2, after1_3]
  rw [show (dat1 V c).Φ t.succ = inv1 V c (t.val + 1) from rfl,
    show (dat1 V c).Φ t.castSucc = inv1 V c t.val from rfl, inv1_pos V c (t.val + 1) (Nat.succ_ne_zero _)]
  by_cases hz : t.val = 0
  · rw [inv1_zero V c _ hz, hid1_at V c t hz]
    iintro ⟨⟨⟨HS, HR⟩, Hg⟩, Ho, ⟨%d0, H0⟩, ⟨%d1, H1⟩, ⟨%d2, H2⟩, ⟨%d3, H3⟩⟩
    iapply (run_first1 c Set.univ (grid1.coords t) _ _ _ _ _ _ _ _ _ _ ((first1_iff t).mpr hz) (blk1 V c 0 t) (blk1 V c 1 t) (blk1 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [inv1_pos V c _ hz]
    iintro ⟨⟨HS, HR, Hg⟩, Ho, ⟨%d0, H0⟩, ⟨%d1, H1⟩, ⟨%d2, H2⟩, ⟨%d3, H3⟩⟩
    iapply (run_later1 c Set.univ (grid1.coords t) _ _ _ _ _ _ _ _ _ _ (fun h => hz ((first1_iff t).mp h)) (blk1 V c 0 t) (blk1 V c 1 t) (blk1 V c 2 t) (hid1 V c) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3

/-- The pipeline's body obligation, at every point. -/
theorem obligation1 (c : Dev nD) : BodyObligation (dat1 (F := F) V c) (defs₀ (F := F)) Variants.none () Set.univ := fun t => by
  rw [bigSep_W1, bigSep_W1]
  exact step1 V c t

/-! ## The invariant at the region's two ends -/

/-- What the region is entered with is the invariant before the first point. -/
theorem enter1 (c : Dev nD) : Pipeline.ΦA spec1 c ⊢ (dat1 V c).Φ 0 := .rfl

/-- After the last point the invariant gives the scoped buffers back, the scratch's contents forgotten. -/
theorem leave1 (c : Dev nD) : (dat1 V c).Φ (Fin.last cfg1.N) ⊢ Pipeline.ΦA spec1 c := by
  rw [show (dat1 V c).Φ (Fin.last cfg1.N) = inv1 V c cfg1.N from rfl, inv1_pos V c _ (by decide)]
  unfold Pipeline.ΦA; rw [scoped1_eq]
  iintro ⟨HS, HR, Hg⟩
  isplitl [HS HR]
  · isplitl [HS]; · iexists _; iexact HS
    iexact HR
  iexact Hg

end Cert.KernelIdeal.Layers

end
-- ==== Proof.LayerRun2.lean ====
/-
  Layer 2 of the network as one pipelined region: relu(adj · (x · W)) computed a block of 400 rows at a time.

  The body keeps h = x · W (rounded to the storage format) in a scratch buffer.  At the first grid point it
  computes h from the two operands that are staged whole and stores it; at every point it multiplies the
  point's block of 400 adjacency rows by the scratch and stores max(·, 0) into the point's output block.
  So the scratch holds the same array after every point, and no output block depends on an earlier one.

  This file states that as two runs of the body (the first point; any later point, where the scratch is
  only read), names what every buffer holds after each point, and proves the per-point obligation of the
  pipeline from them.  Everything is stated for any float interpretation F and for arbitrary contents V of
  the core's buffers when the region is entered.
-/
import proofs.«149695_g32023276159196_cont_9to1_2195_4_alg».proof.Proof.Gen.KernelIdeal.Launch
import proofs.«149695_g32023276159196_cont_9to1_2195_4_alg».proof.Proof.Gen.KernelIdeal.Skeleton
import proofs.«149695_g32023276159196_cont_9to1_2195_4_alg».proof.Proof.Gen.KernelIdeal.Points
import proofs.«149695_g32023276159196_cont_9to1_2195_4_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch: "this is the first grid point" -/

/-- The body's test `program_id(0) == 0`, as the scalar chain it is printed with. -/
abbrev first2 (i : grid2.Coords) : Prop :=
  (Scalar.cmpi .ne (Scalar.extui (Scalar.cmpi .eq (BitVec.ofNat 32 (i 0).val) 0#32)) 0#32) = 1#1

/-- Over the 25 points of the grid the test holds at point 0 and nowhere else. -/
theorem first2_iff : ∀ t : Fin cfg2.N, first2 (grid2.coords t) ↔ t.val = 0 :=
  (by decide +kernel : ∀ t : Fin grid2.N, first2 (grid2.coords t) ↔ t.val = 0)

/-! ## The body, run once in each case -/

set_option maxHeartbeats 2000000 in
/-- FIRST POINT.  With x, W and the adjacency block a in the input buffers, the body leaves h = k2_pay1 x W in
    the scratch, k2_pay2 a h in the output block, and the inputs as they were. -/
theorem run_first2 (c : Dev nD) (E : Set ℕ) (i : grid2.Coords)
    (arg1 : Memref sig .tc .vmem S10000x64 .f32) (harg1 : arg1.IsWhole) (arg2 : Memref sig .tc .vmem S64x16 .f32) (harg2 : arg2.IsWhole)
    (arg3 : Memref sig .tc .vmem S400x10000 .bf16) (harg3 : arg3.IsWhole) (arg4 : Memref sig .tc .vmem S400x16 .f32) (harg4 : arg4.IsWhole)
    (arg5 : Memref sig .tc .vmem S10000x16 .bf16) (harg5 : arg5.IsWhole)
    (hc : first2 i) (x : Vec F S10000x64 .f32) (w : Vec F S64x16 .f32) (a : Vec F S400x10000 .bf16) (Kont : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (k2_pay2 a (k2_pay1 x w))
            ∗ owns (c : Thread nD τ) arg5 fullShare (k2_pay1 x w)) -∗ Kont ⟨⟩))
      ⊢ wp frame (wpE (defs₀ (F := F)) Variants.none c none) E (cc2__layer_kernel i arg1 harg1 arg2 harg2 arg3 harg3 arg4 harg4 arg5 harg5) Kont := by
  simp only [cc2__layer_kernel_eq_skeleton]; unfold cc2__layer_kernel_skel
  unfold owns
  iintro ⟨⟨%f0, %hf0, H0⟩, ⟨%f1, %hf1, H1⟩, ⟨%f2, %hf2, H2⟩, ⟨%d3, %f3, -, H3⟩, ⟨%dS, %fS, -, H4⟩, Hk⟩
  obtain rfl := harg1.eq_unread hf0; obtain rfl := harg2.eq_unread hf1; obtain rfl := harg3.eq_unread hf2
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    simp only [WholeStore.read_store (S := S400x16) _ _ WholeStore.zero2, WholeStore.read_store (S := S10000x16) _ _ WholeStore.zero2, WholeStore.read_store (S := S400x10000) _ _ WholeStore.zero2, WholeStore.load_whole harg1 WholeStore.zero2, WholeStore.load_whole harg2 WholeStore.zero2, WholeStore.load_whole harg3 WholeStore.zero2, View.readCov_unit_zero (S := S10000x16) _ WholeStore.zero2]
  · iexists _; isplitr
    swap; · iexact H4
    ipureintro
    sl_unfold_run_names
    simp only [WholeStore.read_store (S := S400x16) _ _ WholeStore.zero2, WholeStore.read_store (S := S10000x16) _ _ WholeStore.zero2, WholeStore.read_store (S := S400x10000) _ _ WholeStore.zero2, WholeStore.load_whole harg1 WholeStore.zero2, WholeStore.load_whole harg2 WholeStore.zero2, WholeStore.load_whole harg3 WholeStore.zero2]

set_option maxHeartbeats 2000000 in
/-- A LATER POINT.  The scratch holds some array h and is only read: the body leaves k2_pay2 a h in the output
    block, and the inputs and the scratch as they were. -/
theorem run_later2 (c : Dev nD) (E : Set ℕ) (i : grid2.Coords)
    (arg1 : Memref sig .tc .vmem S10000x64 .f32) (harg1 : arg1.IsWhole) (arg2 : Memref sig .tc .vmem S64x16 .f32) (harg2 : arg2.IsWhole)
    (arg3 : Memref sig .tc .vmem S400x10000 .bf16) (harg3 : arg3.IsWhole) (arg4 : Memref sig .tc .vmem S400x16 .f32) (harg4 : arg4.IsWhole)
    (arg5 : Memref sig .tc .vmem S10000x16 .bf16) (harg5 : arg5.IsWhole)
    (hc : ¬ first2 i) (x : Vec F S10000x64 .f32) (w : Vec F S64x16 .f32) (a : Vec F S400x10000 .bf16) (h : Vec F S10000x16 .bf16) (Kont : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ owns (c : Thread nD τ) arg5 fullShare h
        ∗ (iprop(owns (c : Thread nD τ) arg1 fullShare x ∗ owns (c : Thread nD τ) arg2 fullShare w ∗ owns (c : Thread nD τ) arg3 fullShare a
            ∗ owns (c : Thread nD τ) arg4 fullShare (k2_pay2 a h)
            ∗ owns (c : Thread nD τ) arg5 fullShare h) -∗ Kont ⟨⟩))
      ⊢ wp frame (wpE (defs₀ (F := F)) Variants.none c none) E (cc2__layer_kernel i arg1 harg1 arg2 harg2 arg3 harg3 arg4 harg4 arg5 harg5) Kont := by
  simp only [cc2__layer_kernel_eq_skeleton]; unfold cc2__layer_kernel_skel
  unfold owns
  iintro ⟨⟨%f0, %hf0, H0⟩, ⟨%f1, %hf1, H1⟩, ⟨%f2, %hf2, H2⟩, ⟨%d3, %f3, -, H3⟩, ⟨%fS, %hfS, H4⟩, Hk⟩
  obtain rfl := harg1.eq_unread hf0; obtain rfl := harg2.eq_unread hf1; obtain rfl := harg3.eq_unread hf2; obtain rfl := harg5.eq_unread hfS
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_run_names
    simp only [WholeStore.read_store (S := S400x16) _ _ WholeStore.zero2, WholeStore.read_store (S := S10000x16) _ _ WholeStore.zero2, WholeStore.read_store (S := S400x10000) _ _ WholeStore.zero2, WholeStore.load_whole harg1 WholeStore.zero2, WholeStore.load_whole harg2 WholeStore.zero2, WholeStore.load_whole harg3 WholeStore.zero2, WholeStore.load_whole harg5 WholeStore.zero2]
  · iexists _; isplitr; · ipureintro; exact harg5.read_unread _
    iexact H4

end Cert.KernelIdeal.Layers

end
-- ==== Proof.LayerData2.lean ====
/-
  Layer 2: what every buffer holds after each grid point, and the pipeline's per-point obligation.

  Windows 0 and 1 stage x and W whole (their block is the whole array at every point); window 2 stages the
  point's 400 rows of the adjacency; window 3 is the point's 400 rows of the output.  After the body at point t the inputs' buffers still hold their
  blocks, the output's holds k2_pay2 (rows t of adj) h,
  where h = k2_pay1 x W is what the scratch holds from the first point on.  The region's invariant says
  exactly that about the scratch: anything before the first point, h after every point.
-/
import proofs.«149695_g32023276159196_cont_9to1_2195_4_alg».proof.Proof.LayerRun2

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## Blocks, and the array the scratch holds -/

/-- Window `w`'s block at point `t`, read off the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first grid point. -/
abbrev origin2 : Fin cfg2.N := ⟨0, by decide⟩

/-- h = x · W in the storage format, from the blocks of windows 0 and 1 at the first point (which are the whole arrays). -/
def hid2 (c : Dev nD) : Vec F S10000x16 .bf16 := k2_pay1 (blk2 V c 0 origin2) (blk2 V c 1 origin2)

/-- At the first point, h is computed from that point's blocks. -/
theorem hid2_at (c : Dev nD) (t : Fin cfg2.N) (hz : t.val = 0) : hid2 V c = k2_pay1 (blk2 V c 0 t) (blk2 V c 1 t) := by
  obtain rfl : t = origin2 := Fin.ext hz
  rfl

/-! ## The invariant: what the scratch holds between points -/

/-- The scratch as a whole-buffer memref. -/
abbrev scratch2 : Memref sig .tc .vmem S10000x16 .bf16 := Memref.whole cc2_scratch0

/-- The core's other scoped buffers that are no staging buffer of this call: untouched by the body. -/
abbrev others2 (c : Dev nD) : sProp 𝕄 :=
  Pipeline.scopedRestBut (Ix := Unit) (Name := ℕ) (U := UR sig nD τ) (Lvl := ℕ) (Val := Elt F) spec2 c [cc2_scratch0]

/-- The scoped buffers the body may use: the scratch, at some contents, beside the others. -/
theorem scoped2_eq (c : Dev nD) :
    (Pipeline.scopedRest (Ix := Unit) (Name := ℕ) (U := UR sig nD τ) (Lvl := ℕ) (Val := Elt F) spec2 c : sProp 𝕄)
      = iprop((∃ d, owns (c : Thread nD τ) (scratch2) fullShare d) ∗ others2 c) := by
  rw [Pipeline.scopedRest_split_of_list spec2 c [cc2_scratch0] (by decide) (by decide)]
  simp only [scratch2, owns_whole, bigSepL]
  rfl

/-- Before point `n`: nothing is known of the scratch before the first point; afterwards it holds h. -/
def inv2 (c : Dev nD) : ℕ → sProp 𝕄
  | 0 => Pipeline.ΦA spec2 c
  | _ + 1 => iprop(owns (c : Thread nD τ) scratch2 fullShare (hid2 V c) ∗ others2 c ∗ ∃ r, prngReg c r)

theorem inv2_zero (c : Dev nD) (n : ℕ) (hz : n = 0) :
    inv2 V c n = iprop(((∃ d, owns (c : Thread nD τ) scratch2 fullShare d) ∗ others2 c) ∗ ∃ r, prngReg c r) := by
  subst hz
  show Pipeline.ΦA spec2 c = _
  unfold Pipeline.ΦA; rw [scoped2_eq]

theorem inv2_pos (c : Dev nD) (n : ℕ) (hn : n ≠ 0) :
    inv2 V c n = iprop(owns (c : Thread nD τ) scratch2 fullShare (hid2 V c) ∗ others2 c ∗ ∃ r, prngReg c r) := by
  cases n with
  | zero => exact absurd rfl hn
  | succ n => rfl

/-! ## The proof data -/

/-- The arrays as the region finds them; after the body at point `t` the inputs' buffers at their blocks and the
    output's at the layer's value on that block of rows; the invariant above; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => k2_pay2 (blk2 V c 2 t) (hid2 V c)
  Φ t := inv2 V c t.val
  q _ := fullShare
  owed _ := 0

theorem A2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = k2_pay2 (blk2 V c 2 t) (hid2 V c) := by dsimp only [dat2]

/-- Input window 0's current buffer holds its block at every point, fetched there or not: an unfetched
    window's block index has not moved since the point that fetched it. -/
theorem found2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [A2]; try rfl) t d).trans
    (by unfold Dat.fetched Dat.blockOf blk2; rw [A2]; try rfl)

/-- Input window 1's current buffer holds its block at every point, fetched there or not: an unfetched
    window's block index has not moved since the point that fetched it. -/
theorem found2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [A2]; try rfl) t d).trans
    (by unfold Dat.fetched Dat.blockOf blk2; rw [A2]; try rfl)

/-- Input window 2's current buffer holds its block at every point, fetched there or not: an unfetched
    window's block index has not moved since the point that fetched it. -/
theorem found2_2 (c : Dev nD) (t : Fin cfg2.N) (d) : (dat2 V c).before 2 t d = blk2 V c 2 t :=
  ((dat2 V c).before_in_eq_fetched 2 rfl (fun _ => rfl) (fun _ _ _ => rfl)
    (fun t => by rw [after2_2]; unfold Dat.blockOf blk2; rw [A2]; try rfl) t d).trans
    (by unfold Dat.fetched Dat.blockOf blk2; rw [A2]; try rfl)

/-! ## The per-point obligation -/

set_option maxHeartbeats 4000000 in
/-- The body at any point.  At the first point the invariant hands over the scratch at anything and takes it
    back at h; at a later point it hands it over at h, the body only reads it, and it comes back at h. -/
theorem step2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d)))
      ⊢ wp frame (wpE (defs₀ (F := F)) Variants.none c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ owns (c : Thread nD τ) (st2_2 t) fullShare ((dat2 V c).after 2 t)
          ∗ owns (c : Thread nD τ) (st2_3 t) fullShare ((dat2 V c).after 3 t))) := by
  simp only [found2_0, found2_1, found2_2]
  rw [show (dat2 V c).owesAt () t.succ = (dat2 V c).owesAt () t.castSucc from rfl,
    after2_0, after2_1, after2_2, after2_3]
  rw [show (dat2 V c).Φ t.succ = inv2 V c (t.val + 1) from rfl,
    show (dat2 V c).Φ t.castSucc = inv2 V c t.val from rfl, inv2_pos V c (t.val + 1) (Nat.succ_ne_zero _)]
  by_cases hz : t.val = 0
  · rw [inv2_zero V c _ hz, hid2_at V c t hz]
    iintro ⟨⟨⟨HS, HR⟩, Hg⟩, Ho, ⟨%d0, H0⟩, ⟨%d1, H1⟩, ⟨%d2, H2⟩, ⟨%d3, H3⟩⟩
    iapply (run_first2 c Set.univ (grid2.coords t) _ _ _ _ _ _ _ _ _ _ ((first2_iff t).mpr hz) (blk2 V c 0 t) (blk2 V c 1 t) (blk2 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [inv2_pos V c _ hz]
    iintro ⟨⟨HS, HR, Hg⟩, Ho, ⟨%d0, H0⟩, ⟨%d1, H1⟩, ⟨%d2, H2⟩, ⟨%d3, H3⟩⟩
    iapply (run_later2 c Set.univ (grid2.coords t) _ _ _ _ _ _ _ _ _ _ (fun h => hz ((first2_iff t).mp h)) (blk2 V c 0 t) (blk2 V c 1 t) (blk2 V c 2 t) (hid2 V c) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3

/-- The pipeline's body obligation, at every point. -/
theorem obligation2 (c : Dev nD) : BodyObligation (dat2 (F := F) V c) (defs₀ (F := F)) Variants.none () Set.univ := fun t => by
  rw [bigSep_W2, bigSep_W2]
  exact step2 V c t

/-! ## The invariant at the region's two ends -/

/-- What the region is entered with is the invariant before the first point. -/
theorem enter2 (c : Dev nD) : Pipeline.ΦA spec2 c ⊢ (dat2 V c).Φ 0 := .rfl

/-- After the last point the invariant gives the scoped buffers back, the scratch's contents forgotten. -/
theorem leave2 (c : Dev nD) : (dat2 V c).Φ (Fin.last cfg2.N) ⊢ Pipeline.ΦA spec2 c := by
  rw [show (dat2 V c).Φ (Fin.last cfg2.N) = inv2 V c cfg2.N from rfl, inv2_pos V c _ (by decide)]
  unfold Pipeline.ΦA; rw [scoped2_eq]
  iintro ⟨HS, HR, Hg⟩
  isplitl [HS HR]
  · isplitl [HS]; · iexists _; iexact HS
    iexact HR
  iexact Hg

end Cert.KernelIdeal.Layers

end
-- ==== Proof.LayerNet.lean ====
/-
  The whole program: three layers in a row, each a pipelined region, with nothing between them.

  The contents of the core's unscoped buffers are followed from the launch through the three regions: a region
  changes only the arrays of its output windows, and leaves there what its grid points wrote back.  Each region is
  given to the library's several-regions launch theorem as one record (its layout, its per-point obligation, and
  how the buffers enter and leave it), and the run's conclusion names every unscoped buffer's final contents.
  From that one run both the frame claim (the five argument arrays end as launched) and the value of the result
  array are read.
-/
import proofs.«149695_g32023276159196_cont_9to1_2195_4_alg».proof.Proof.LayerData0
import proofs.«149695_g32023276159196_cont_9to1_2195_4_alg».proof.Proof.LayerData1
import proofs.«149695_g32023276159196_cont_9to1_2195_4_alg».proof.Proof.LayerData2

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the four boundaries -/

/-- At launch. -/
abbrev atLaunch : Dev nD → Valuation τ sig (Elt F) := fun c b => m ((c : Dev nD), b)
/-- The same, read at the TensorCore's references: what layer 0 is entered with. -/
abbrev entry0 : (c : Dev nD) → (b : Ref sig .tc) → Buf (Elt F) ((c : Thread nD τ).loc b) := fun c b => atLaunch m c b

/-- After layer 0: the layer's arrays at what its write-backs leave (an input as it was entered, an output with
    every point's block written back), every other buffer as it was. -/
def after0 (c : Dev nD) : Valuation τ sig (Elt F) :=
  Pipeline.withArrays spec0 c (atLaunch m c) fun w => (dat0 (entry0 m) c).arrAt w cfg0.N
theorem after0_arr (c : Dev nD) (w : Fin cfg0.W) :
    after0 m c (Proc.devRef .tc (Pipeline.arrRef spec0 w)) = (dat0 (entry0 m) c).arrAt w cfg0.N := by
  unfold after0; exact Pipeline.withArrays_arr spec0 launch0.win.arr_inj c _ _ w
theorem after0_off (c : Dev nD) (b : Ref sig .tc) (hb : ∀ w, Pipeline.arrRef spec0 w ≠ b) :
    after0 m c (Proc.devRef .tc b) = atLaunch m c (Proc.devRef .tc b) := by
  unfold after0; exact Pipeline.withArrays_of_ne spec0 c _ _ b hb

abbrev entry1 : (c : Dev nD) → (b : Ref sig .tc) → Buf (Elt F) ((c : Thread nD τ).loc b) := fun c b => after0 m c b

/-- After layer 1: the layer's arrays at what its write-backs leave (an input as it was entered, an output with
    every point's block written back), every other buffer as it was. -/
def after1 (c : Dev nD) : Valuation τ sig (Elt F) :=
  Pipeline.withArrays spec1 c (after0 m c) fun w => (dat1 (entry1 m) c).arrAt w cfg1.N
theorem after1_arr (c : Dev nD) (w : Fin cfg1.W) :
    after1 m c (Proc.devRef .tc (Pipeline.arrRef spec1 w)) = (dat1 (entry1 m) c).arrAt w cfg1.N := by
  unfold after1; exact Pipeline.withArrays_arr spec1 launch1.win.arr_inj c _ _ w
theorem after1_off (c : Dev nD) (b : Ref sig .tc) (hb : ∀ w, Pipeline.arrRef spec1 w ≠ b) :
    after1 m c (Proc.devRef .tc b) = after0 m c (Proc.devRef .tc b) := by
  unfold after1; exact Pipeline.withArrays_of_ne spec1 c _ _ b hb

abbrev entry2 : (c : Dev nD) → (b : Ref sig .tc) → Buf (Elt F) ((c : Thread nD τ).loc b) := fun c b => after1 m c b

/-- After layer 2: the layer's arrays at what its write-backs leave (an input as it was entered, an output with
    every point's block written back), every other buffer as it was. -/
def after2 (c : Dev nD) : Valuation τ sig (Elt F) :=
  Pipeline.withArrays spec2 c (after1 m c) fun w => (dat2 (entry2 m) c).arrAt w cfg2.N
theorem after2_arr (c : Dev nD) (w : Fin cfg2.W) :
    after2 m c (Proc.devRef .tc (Pipeline.arrRef spec2 w)) = (dat2 (entry2 m) c).arrAt w cfg2.N := by
  unfold after2; exact Pipeline.withArrays_arr spec2 launch2.win.arr_inj c _ _ w
theorem after2_off (c : Dev nD) (b : Ref sig .tc) (hb : ∀ w, Pipeline.arrRef spec2 w ≠ b) :
    after2 m c (Proc.devRef .tc b) = after1 m c (Proc.devRef .tc b) := by
  unfold after2; exact Pipeline.withArrays_of_ne spec2 c _ _ b hb

abbrev exit2 : (c : Dev nD) → (b : Ref sig .tc) → Buf (Elt F) ((c : Thread nD τ).loc b) := fun c b => after2 m c b

/-! ## The three pipelines' proof data, and what rides along -/

/-- No pallas_call of the program has a prefetched table. -/
abbrev tables : (p : Fin 3) → (pcfgs (F := F) p).Adm := fun p => (cfgs p).toPCfg_adm

/-- Each layer's proof data at the contents its region is entered with. -/
def pdats : (p : Fin 3) → (c : Dev nD) → Dat τ (Elt F) Unit ℕ (UR sig nD τ) ℕ (Pipeline.pin (pcfgs (F := F)) tables p) c
  | ⟨0, _⟩ => fun c => dat0 (entry0 m) c
  | ⟨1, _⟩ => fun c => dat1 (entry1 m) c
  | ⟨2, _⟩ => fun c => dat2 (entry2 m) c

/-- No core owes another anything, so no level is assigned to any pair. -/
abbrev noPairs : GSem nD τ sig → Finset Unit := fun _ => ∅
abbrev noLevel : GSem nD τ sig → Unit → ℕ := fun _ _ => 0

/-- Beside the buffers a core carries its generator register, at some state, and the fact that it owes nothing. -/
abbrev rider (c : Dev nD) : sProp 𝕄 :=
  iprop((∃ r, prngReg c r) ∗ ∃ W, owes (c : Thread nD τ) (0 : CellTallies nD τ sig Unit) W)

/-! ## The layers as segments -/

set_option backward.isDefEq.respectTransparency.types false in
/-- Layer 0 as a segment of the program: entered with every unscoped buffer at `atLaunch`, left with them at `after0`.
    Going in, the layer's arrays are taken out of the unscoped buffers and the generator register joins the
    invariant; coming out, the arrays go back at what the write-backs left and the register is returned.
    The body owes no other core anything and has no semaphore of its own. -/
def layer0 : Pipeline.RegionSeg (pcfgs (F := F)) tables (pdats m) () defs₀ Variants.none noPairs noLevel 0 where
  win := launch0.win.to₀
  block_pos := launch0.block_pos
  stage_whole := launch0.stage_whole
  K := PEmpty
  osem k := k.elim
  ho := Pipeline.OwnSemFacts.none _
  hbody c := (obligation0 (entry0 m) c).loose
  hwaits := Pipeline.hwaits_of_owed_zero _ _ _ _ noPairs noLevel 0 fun _ _ => rfl
  pre c := iprop(StableHlo.held (c : Thread nD τ) (Pipeline.ucRefs τ sig) (atLaunch m c) ∗ rider c)
  post c := iprop(StableHlo.held (c : Thread nD τ) (Pipeline.ucRefs τ sig) (after0 m c) ∗ rider c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) tables (pdats m) launch0.win launch0.arr_whole c
      ((pdats m 0 c).share_full fun _ => rfl) (entry0 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr
      · ipureintro; exact fun _ _ => Or.inl trivial
      iexact Howes
    isplitl [Hreg]; · iexact Hreg
    iexact Hrest
  hin c := by
    rw [show (pdats m 0 c).Φ 0 = Pipeline.ΦA spec0 c from rfl]
    unfold Pipeline.ΦA
    iintro ⟨Hreg, -, Hscoped⟩
    isplitl [Hscoped]; · iexact Hscoped
    iexact Hreg
  hout c := by
    rw [Pipeline.ownSems0_none]
    refine (leave0 (entry0 m) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) tables (Ix := Unit) (Name := ℕ) (U := UR sig nD τ) (Lvl := ℕ)
      launch0.win launch0.arr_whole c (pdats m) ((pdats m 0 c).share_full fun _ => rfl)
      (entry0 m c) (entry1 m c) ((pdats m 0 c).arrAt · cfg0.N) (fun w => (after0_arr m c w).symm)
      (fun b hb => after0_off m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩
    iexists W; iexact Howes

set_option backward.isDefEq.respectTransparency.types false in
/-- Layer 1 as a segment of the program: entered with every unscoped buffer at `after0`, left with them at `after1`.
    Going in, the layer's arrays are taken out of the unscoped buffers and the generator register joins the
    invariant; coming out, the arrays go back at what the write-backs left and the register is returned.
    The body owes no other core anything and has no semaphore of its own. -/
def layer1 : Pipeline.RegionSeg (pcfgs (F := F)) tables (pdats m) () defs₀ Variants.none noPairs noLevel 1 where
  win := launch1.win.to₀
  block_pos := launch1.block_pos
  stage_whole := launch1.stage_whole
  K := PEmpty
  osem k := k.elim
  ho := Pipeline.OwnSemFacts.none _
  hbody c := (obligation1 (entry1 m) c).loose
  hwaits := Pipeline.hwaits_of_owed_zero _ _ _ _ noPairs noLevel 1 fun _ _ => rfl
  pre c := iprop(StableHlo.held (c : Thread nD τ) (Pipeline.ucRefs τ sig) (after0 m c) ∗ rider c)
  post c := iprop(StableHlo.held (c : Thread nD τ) (Pipeline.ucRefs τ sig) (after1 m c) ∗ rider c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) tables (pdats m) launch1.win launch1.arr_whole c
      ((pdats m 1 c).share_full fun _ => rfl) (entry1 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr
      · ipureintro; exact fun _ _ => Or.inl trivial
      iexact Howes
    isplitl [Hreg]; · iexact Hreg
    iexact Hrest
  hin c := by
    rw [show (pdats m 1 c).Φ 0 = Pipeline.ΦA spec1 c from rfl]
    unfold Pipeline.ΦA
    iintro ⟨Hreg, -, Hscoped⟩
    isplitl [Hscoped]; · iexact Hscoped
    iexact Hreg
  hout c := by
    rw [Pipeline.ownSems0_none]
    refine (leave1 (entry1 m) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) tables (Ix := Unit) (Name := ℕ) (U := UR sig nD τ) (Lvl := ℕ)
      launch1.win launch1.arr_whole c (pdats m) ((pdats m 1 c).share_full fun _ => rfl)
      (entry1 m c) (entry2 m c) ((pdats m 1 c).arrAt · cfg1.N) (fun w => (after1_arr m c w).symm)
      (fun b hb => after1_off m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩
    iexists W; iexact Howes

set_option backward.isDefEq.respectTransparency.types false in
/-- Layer 2 as a segment of the program: entered with every unscoped buffer at `after1`, left with them at `after2`.
    Going in, the layer's arrays are taken out of the unscoped buffers and the generator register joins the
    invariant; coming out, the arrays go back at what the write-backs left and the register is returned.
    The body owes no other core anything and has no semaphore of its own. -/
def layer2 : Pipeline.RegionSeg (pcfgs (F := F)) tables (pdats m) () defs₀ Variants.none noPairs noLevel 2 where
  win := launch2.win.to₀
  block_pos := launch2.block_pos
  stage_whole := launch2.stage_whole
  K := PEmpty
  osem k := k.elim
  ho := Pipeline.OwnSemFacts.none _
  hbody c := (obligation2 (entry2 m) c).loose
  hwaits := Pipeline.hwaits_of_owed_zero _ _ _ _ noPairs noLevel 2 fun _ _ => rfl
  pre c := iprop(StableHlo.held (c : Thread nD τ) (Pipeline.ucRefs τ sig) (after1 m c) ∗ rider c)
  post c := iprop((StableHlo.held (c : Thread nD τ) (Pipeline.ucRefs τ sig) (after2 m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    have hsplit := Pipeline.arrays_of_unscopedBufs (p := 2) (pcfgs (F := F)) tables (pdats m) launch2.win launch2.arr_whole c
      ((pdats m 2 c).share_full fun _ => rfl) (entry2 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr
      · ipureintro; exact fun _ _ => Or.inl trivial
      iexact Howes
    isplitl [Hreg]; · iexact Hreg
    iexact Hrest
  hin c := by
    rw [show (pdats m 2 c).Φ 0 = Pipeline.ΦA spec2 c from rfl]
    unfold Pipeline.ΦA
    iintro ⟨Hreg, -, Hscoped⟩
    isplitl [Hscoped]; · iexact Hscoped
    iexact Hreg
  hout c := by
    rw [Pipeline.ownSems0_none]
    refine (leave2 (entry2 m) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) tables (Ix := Unit) (Name := ℕ) (U := UR sig nD τ) (Lvl := ℕ)
      launch2.win launch2.arr_whole c (pdats m) ((pdats m 2 c).share_full fun _ => rfl)
      (entry2 m c) (exit2 m c) ((pdats m 2 c).arrAt · cfg2.N) (fun w => (after2_arr m c w).symm)
      (fun b hb => after2_off m c b fun w e => hb (Finset.mem_image.mpr ⟨w, Finset.mem_univ _, e⟩))
    rw [Pipeline.unscopedBufs_held] at hjoin
    iintro ⟨Harr, Howes, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Howes with ⟨%W, -, Howes⟩
    iexists W; iexact Howes

/-! ## The run -/

/-- The program is its three regions in order. -/
abbrev netSegs : List (Pipeline.Seg (pcfgs (F := F)) tables (pdats m) () defs₀ Variants.none noPairs noLevel) :=
  [.region (layer0 m), .region (layer1 m), .region (layer2 m)]

theorem main_is_net (c : Dev nD) : main (F := F) c = Pipeline.Seg.run (netSegs m) :=
  main_segs tables (pdats m) () Variants.none noPairs noLevel (layer0 m) (layer1 m) (layer2 m) c

set_option backward.isDefEq.respectTransparency.types false in
/-- From any memory with the semaphores at zero, every weakly fair execution of the program terminates without a
    fault, and in the final memory every unscoped buffer of every core holds what `after2` says. -/
theorem net_run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = after2 m c b) :=
  Pipeline.θ_run_regions_kit (pcfgs (F := F)) tables (pdats m) () cellOf_inj emb₁ defs₀ Variants.none noPairs noLevel m ρ main (netSegs m)
    (fun c Q => by rw [main_is_net m c])
    (by simp only [netSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ rider c))
    (Tₙ := fun c => iprop(StableHlo.held (c : Thread nD τ) (Pipeline.ucRefs τ sig) (after2 m c) ∗ ∃ r, prngReg c r))
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = after2 m c b)
    (hfin := fun c s' => by
      iintro ⟨⟨Hbufs, -⟩, HSI⟩
      unfold StableHlo.held
      imodintro
      iapply (pointsTo_read_all (Pipeline.ucRefs τ sig) (fun b => (((c : Thread nD τ)).1, b)) (after2 m c) s')
      isplitl [Hbufs] <;> iassumption)
    (hQ := fun s h c => h c)

/-- An unscoped TensorCore reference is one of those the run names. -/
theorem named (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Layers

end
-- ==== Proof.LayerEnds.lean ====
/-
  The five argument arrays end as launched.

  No region writes an argument: each argument is either an input window of a region (whose array the write-backs never
  touch) or bypasses the region altogether.  So the contents `after2` gives an argument's buffer walk back, region by
  region, to the launch memory; with the run's conclusion this is the frame claim.
-/
import proofs.«149695_g32023276159196_cont_9to1_2195_4_alg».proof.Proof.LayerNet

set_option maxRecDepth 16384

noncomputable section

namespace Cert.KernelIdeal.Layers

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- The features: input window 0 of layer 0, bypassing layers 1 and 2. -/
theorem kept_arg0 (c : Dev nD) : after2 m c (Proc.devRef .tc main_arg0) = m ((c : Thread nD τ).loc main_arg0) :=
  calc after2 m c (Proc.devRef .tc main_arg0)
    _ = after1 m c (Proc.devRef .tc main_arg0) := after2_off m c main_arg0 (by decide)
    _ = after0 m c (Proc.devRef .tc main_arg0) := after1_off m c main_arg0 (by decide)
    _ = (dat0 (entry0 m) c).arrAt 0 cfg0.N := after0_arr m c 0
    _ = m ((c : Thread nD τ).loc main_arg0) := ((dat0 (entry0 m) c).arrAt_in 0 rfl _).trans (A0 (entry0 m) c 0)

/-- The adjacency: input window 2 of layer 0, bypassing layers 1 and 2 (which read its narrowed copy). -/
theorem kept_arg1 (c : Dev nD) : after2 m c (Proc.devRef .tc main_arg1) = m ((c : Thread nD τ).loc main_arg1) :=
  calc after2 m c (Proc.devRef .tc main_arg1)
    _ = after1 m c (Proc.devRef .tc main_arg1) := after2_off m c main_arg1 (by decide)
    _ = after0 m c (Proc.devRef .tc main_arg1) := after1_off m c main_arg1 (by decide)
    _ = (dat0 (entry0 m) c).arrAt 2 cfg0.N := after0_arr m c 2
    _ = m ((c : Thread nD τ).loc main_arg1) := ((dat0 (entry0 m) c).arrAt_in 2 rfl _).trans (A0 (entry0 m) c 2)

/-- The first weights: input window 1 of layer 0. -/
theorem kept_arg2 (c : Dev nD) : after2 m c (Proc.devRef .tc main_arg2) = m ((c : Thread nD τ).loc main_arg2) :=
  calc after2 m c (Proc.devRef .tc main_arg2)
    _ = after1 m c (Proc.devRef .tc main_arg2) := after2_off m c main_arg2 (by decide)
    _ = after0 m c (Proc.devRef .tc main_arg2) := after1_off m c main_arg2 (by decide)
    _ = (dat0 (entry0 m) c).arrAt 1 cfg0.N := after0_arr m c 1
    _ = m ((c : Thread nD τ).loc main_arg2) := ((dat0 (entry0 m) c).arrAt_in 1 rfl _).trans (A0 (entry0 m) c 1)

/-- The second weights: input window 1 of layer 1, bypassing layers 0 and 2. -/
theorem kept_arg3 (c : Dev nD) : after2 m c (Proc.devRef .tc main_arg3) = m ((c : Thread nD τ).loc main_arg3) :=
  calc after2 m c (Proc.devRef .tc main_arg3)
    _ = after1 m c (Proc.devRef .tc main_arg3) := after2_off m c main_arg3 (by decide)
    _ = (dat1 (entry1 m) c).arrAt 1 cfg1.N := after1_arr m c 1
    _ = after0 m c (Proc.devRef .tc main_arg3) := ((dat1 (entry1 m) c).arrAt_in 1 rfl _).trans (A1 (entry1 m) c 1)
    _ = m ((c : Thread nD τ).loc main_arg3) := after0_off m c main_arg3 (by decide)

/-- The third weights: input window 1 of layer 2, bypassing layers 0 and 1. -/
theorem kept_arg4 (c : Dev nD) : after2 m c (Proc.devRef .tc main_arg4) = m ((c : Thread nD τ).loc main_arg4) :=
  calc after2 m c (Proc.devRef .tc main_arg4)
    _ = (dat2 (entry2 m) c).arrAt 1 cfg2.N := after2_arr m c 1
    _ = after1 m c (Proc.devRef .tc main_arg4) := ((dat2 (entry2 m) c).arrAt_in 1 rfl _).trans (A2 (entry2 m) c 1)
    _ = after0 m c (Proc.devRef .tc main_arg4) := after1_off m c main_arg4 (by decide)
    _ = m ((c : Thread nD τ).loc main_arg4) := after0_off m c main_arg4 (by decide)

/-- THE FRAME, at any float interpretation: the program runs to the end without a fault and the five argument arrays
    hold what they were launched with. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (named main_arg0 (by decide))).trans (kept_arg0 m c),
     (h c _ (named main_arg1 (by decide))).trans (kept_arg1 m c),
     (h c _ (named main_arg2 (by decide))).trans (kept_arg2 m c),
     (h c _ (named main_arg3 (by decide))).trans (kept_arg3 m c),
     (h c _ (named main_arg4 (by decide))).trans (kept_arg4 m c)⟩) (net_run m ρ)

end Cert.KernelIdeal.Layers

end
-- ==== Proof.LibGcnLayer.lean ====
/-
  ONE GRAPH LAYER, at the ideal values:   out = max(A · (X · W), 0)   for an [n, n] adjacency A, [n, f] features X and
  [f, h] weights W.  Entry (p, j) of the result is

      max( ∑ k, A(p, k) · ( ∑ l, X(k, l) · W(l, j) ),  0 ).

  The zero is kept as the word the programs spell it with; nothing here evaluates it.  Row p of the result reads row p of
  A only, so the layer computed on a block of rows of A (with the same X and W) is that block of rows of the layer.
-/
import Idealize.ShloMosaic.Lib.ValueIdx
import Idealize.ShloMosaic.PureOps.Ideal.Laws

noncomputable section

open scoped BigOperators

namespace Cert.Gcn

open Idealize.ShloMosaic Idealize.ShloMosaic.ValueIdx

/-- The hidden product X · W at (k, j). -/
def hidden {n f h : ℕ} (X : (⟨2, ![n, f]⟩ : Shape).Idx → EReal) (W : (⟨2, ![f, h]⟩ : Shape).Idx → EReal) :
    (⟨2, ![n, h]⟩ : Shape).Idx → EReal :=
  fun i => ∑ l : Fin f, X (ix2 (i 0) l) * W (ix2 l (i 1))

/-- The layer max(A · H, 0) for a given hidden array H, at (p, j). -/
def aggregate {r n h : ℕ} (A : (⟨2, ![r, n]⟩ : Shape).Idx → EReal) (H : (⟨2, ![n, h]⟩ : Shape).Idx → EReal) :
    (⟨2, ![r, h]⟩ : Shape).Idx → EReal :=
  fun i => max (∑ k : Fin n, A (ix2 (i 0) k) * H (ix2 k (i 1))) (Ideal.ofBits .f32 0x00000000#32)

/-- The whole layer. -/
def layer {n f h : ℕ} (A : (⟨2, ![n, n]⟩ : Shape).Idx → EReal) (X : (⟨2, ![n, f]⟩ : Shape).Idx → EReal)
    (W : (⟨2, ![f, h]⟩ : Shape).Idx → EReal) : (⟨2, ![n, h]⟩ : Shape).Idx → EReal :=
  aggregate A (hidden X W)

/-- A block of rows: if `a` is the rows `off, off + 1, …` of `A`, the aggregate over `a` at `y` is the aggregate
    over `A` at the index `off` rows further down, same column. -/
theorem aggregate_rows {r n h : ℕ} (a : (⟨2, ![r, n]⟩ : Shape).Idx → EReal) (A : (⟨2, ![n, n]⟩ : Shape).Idx → EReal)
    (H : (⟨2, ![n, h]⟩ : Shape).Idx → EReal) (off : ℕ)
    (y : (⟨2, ![r, h]⟩ : Shape).Idx) (i : (⟨2, ![n, h]⟩ : Shape).Idx)
    (hi0 : (i 0).val = off + (y 0).val) (hi1 : (i 1).val = (y 1).val)
    (ha : ∀ (p : Fin r) (q : Fin n) (k : Fin n), q.val = off + p.val → a (ix2 p k) = A (ix2 q k)) :
    aggregate a H y = aggregate A H i := by
  unfold aggregate
  have e1 : i 1 = y 1 := Fin.ext hi1
  rw [e1]
  exact congrArg (max · _) (Finset.sum_congr rfl fun k _ => by rw [ha (y 0) (i 0) k hi0])

end Cert.Gcn

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«149695_g32023276159196_cont_9to1_2195_4_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«149695_g32023276159196_cont_9to1_2195_4_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LayerValue0.lean ====
/-
  Layer 0 at the ideal values: the output array after the region is the graph layer of the region's three input arrays.

  The scratch holds hidden X W (the payload is a matrix product into a zero accumulator followed by a change of format,
  which changes no value); a point's output block is aggregate (the point's rows of A) (the scratch); and a block of rows
  of the aggregate is the aggregate on those rows.  The 25 blocks of 400 rows tile the 10000 rows, so the array ends at
  layer A X W everywhere.  The second output ends at A itself.
-/
import proofs.«149695_g32023276159196_cont_9to1_2195_4_alg».proof.Proof.LayerData0
import proofs.«149695_g32023276159196_cont_9to1_2195_4_alg».proof.Proof.LibGcnLayer
import proofs.«149695_g32023276159196_cont_9to1_2195_4_alg».proof.Proof.LibBlockDot
import Idealize.ShloMosaic.Lib.Pipeline.Value
import Idealize.ShloMosaic.Lib.ValueIdx

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.BlockDot Cert.Gcn

/-! ## The two payloads -/

/-- What the first point stores in the scratch is X · W. -/
theorem scratch0_is (x : Vec Ideal S10000x128 .f32) (w : Vec Ideal S128x64 .f32) :
    (k0_pay1 x w : S10000x64.Idx → EReal) = hidden (n := 10000) (f := 128) (h := 64) x w := by
  funext i
  obtain ⟨k, j, rfl⟩ : ∃ (k : Fin 10000) (j : Fin 64), i = ix2 k j := ⟨i 0, i 1, eq_ix2 i⟩
  unfold k0_pay1
  simp only [shapeCast_self]
  exact kdot_apply (φ₁ := .f32) (φ₂ := .f32) none x w k j

/-- What a point stores in its output block is max(a · h, 0) for its rows a of the adjacency and the scratch h. -/
theorem block0_is (a : Vec Ideal S400x10000 .f32) (h : Vec Ideal S10000x64 .bf16) :
    (k0_pay3 a h : S400x64.Idx → EReal) = aggregate (r := 400) (n := 10000) (h := 64) a h := by
  funext i
  obtain ⟨p, j, rfl⟩ : ∃ (p : Fin 400) (j : Fin 64), i = ix2 p j := ⟨i 0, i 1, eq_ix2 i⟩
  unfold k0_pay3 k0_pay2
  simp only [shapeCast_self]
  rw [maximumf_apply]
  exact congrArg (max · _) (kdot_apply (φ₁ := .bf16) (φ₂ := .bf16) none a h p j)

/-! ## Where each window's block sits, decided over the 25 grid points -/

theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-! ## The blocks read off their arrays -/

/-- Window 0's block at the first point is the whole array X. -/
theorem whole0_0 (c : Dev nD) : (blk0 V c 0 origin0 : S10000x128.Idx → EReal) = (V c (Pipeline.arrRef spec0 0) : S10000x128.Idx → EReal) := by
  obtain ⟨e00, e01, e10, e11, e20, e21, e30, e31, e40, e41⟩ := idx0 origin0
  funext y
  show V c (Pipeline.arrRef spec0 0) (((cfg0.win 0).blk origin0).view.emb y) = V c (Pipeline.arrRef spec0 0) y
  refine congrArg _ ?_
  funext a; apply Fin.ext
  match a with
  | ⟨0, _⟩ => show win0_0.index origin0 (0 : Fin 2) * 10000 + 1 * (y 0).val = (y 0).val; omega
  | ⟨1, _⟩ => show win0_0.index origin0 (1 : Fin 2) * 128 + 1 * (y 1).val = (y 1).val; omega

/-- Window 1's block at the first point is the whole array W. -/
theorem whole0_1 (c : Dev nD) : (blk0 V c 1 origin0 : S128x64.Idx → EReal) = (V c (Pipeline.arrRef spec0 1) : S128x64.Idx → EReal) := by
  obtain ⟨e00, e01, e10, e11, e20, e21, e30, e31, e40, e41⟩ := idx0 origin0
  funext y
  show V c (Pipeline.arrRef spec0 1) (((cfg0.win 1).blk origin0).view.emb y) = V c (Pipeline.arrRef spec0 1) y
  refine congrArg _ ?_
  funext a; apply Fin.ext
  match a with
  | ⟨0, _⟩ => show win0_1.index origin0 (0 : Fin 2) * 128 + 1 * (y 0).val = (y 0).val; omega
  | ⟨1, _⟩ => show win0_1.index origin0 (1 : Fin 2) * 64 + 1 * (y 1).val = (y 1).val; omega

/-- Window 2's block at point `t` is rows 400·t, …, 400·t + 399 of A. -/
theorem rows0 (c : Dev nD) (t : Fin cfg0.N) (p : Fin 400) (q : Fin 10000) (k : Fin 10000) (hq : q.val = t.val * 400 + p.val) :
    (blk0 V c 2 t : S400x10000.Idx → EReal) (ix2 p k) = (V c (Pipeline.arrRef spec0 2) : S10000x10000.Idx → EReal) (ix2 q k) := by
  obtain ⟨e00, e01, e10, e11, e20, e21, e30, e31, e40, e41⟩ := idx0 t
  show V c (Pipeline.arrRef spec0 2) (((cfg0.win 2).blk t).view.emb (ix2 p k)) = V c (Pipeline.arrRef spec0 2) (ix2 q k)
  refine congrArg _ ?_
  funext a; apply Fin.ext
  match a with
  | ⟨0, _⟩ => show win0_2.index t (0 : Fin 2) * 400 + 1 * p.val = q.val; omega
  | ⟨1, _⟩ => show win0_2.index t (1 : Fin 2) * 10000 + 1 * k.val = k.val; omega

/-- The scratch holds X · W of the whole arrays. -/
theorem hid0_is (c : Dev nD) : (hid0 V c : S10000x64.Idx → EReal) = hidden (V c (Pipeline.arrRef spec0 0) : S10000x128.Idx → EReal) (V c (Pipeline.arrRef spec0 1) : S128x64.Idx → EReal) := by
  unfold hid0
  rw [scratch0_is, whole0_0, whole0_1]

/-! ## What a point writes back, and that the blocks tile the array -/

/-- Point `t` writes back block `t` of the layer of the whole arrays. -/
theorem written0 (c : Dev nD) (t : Fin cfg0.N) :
    (dat0 V c).flushed 3 t = ((cfg0.win 3).blk t).view.read (Elt Ideal) (layer (V c (Pipeline.arrRef spec0 2) : S10000x10000.Idx → EReal) (V c (Pipeline.arrRef spec0 0) : S10000x128.Idx → EReal) (V c (Pipeline.arrRef spec0 1) : S128x64.Idx → EReal)) := by
  show (cfg0.win 3).cut (grid0.coords t) ((dat0 V c).after 3 t) = _
  rw [after0_3, block0_is, hid0_is]
  obtain ⟨e00, e01, e10, e11, e20, e21, e30, e31, e40, e41⟩ := idx0 t
  funext y
  show aggregate (blk0 V c 2 t : S400x10000.Idx → EReal) (hidden (V c (Pipeline.arrRef spec0 0) : S10000x128.Idx → EReal) (V c (Pipeline.arrRef spec0 1) : S128x64.Idx → EReal)) y
    = aggregate (V c (Pipeline.arrRef spec0 2) : S10000x10000.Idx → EReal) (hidden (V c (Pipeline.arrRef spec0 0) : S10000x128.Idx → EReal) (V c (Pipeline.arrRef spec0 1) : S128x64.Idx → EReal)) (((cfg0.win 3).blk t).view.emb y)
  refine aggregate_rows _ _ _ (t.val * 400) y _ ?_ ?_ (fun p q k hq => rows0 V c t p q k hq)
  · show win0_3.index t (0 : Fin 2) * 400 + 1 * (y 0).val = t.val * 400 + (y 0).val; omega
  · show win0_3.index t (1 : Fin 2) * 64 + 1 * (y 1).val = (y 1).val; omega

/-- An index of the output array is in point `t`'s block iff each coordinate is in the block's range. -/
theorem inBlock0 (t : Fin cfg0.N) (i : S10000x64.Idx) :
    i ∈ ((cfg0.win 3).blk t).view.set ↔ ∀ a : Fin 2, win0_3.index t a * S400x64.size a ≤ (i a).val ∧ (i a).val < win0_3.index t a * S400x64.size a + S400x64.size a := by
  show i ∈ ((View.whole main_v0_0).slice (win0_3.rect t)).set ↔ _
  rw [View.set_slice_whole, Rect.mem_set_unit]
  exact Iff.rfl

/-- Row r of the output is in the block of point r / 400. -/
theorem covered0 (i : S10000x64.Idx) : ∃ t : Fin cfg0.N, (cfg0.win 3).flush t = true ∧ i ∈ ((cfg0.win 3).blk t).view.set := by
  have hi0 : (i 0).val < 10000 := (i 0).isLt
  have hi1 : (i 1).val < 64 := (i 1).isLt
  have hN : cfg0.N = 25 := N_0
  refine ⟨⟨(i 0).val / 400, by rw [hN]; omega⟩, flush0_3 _, ?_⟩
  obtain ⟨e00, e01, e10, e11, e20, e21, e30, e31, e40, e41⟩ := idx0 ⟨(i 0).val / 400, by rw [hN]; omega⟩
  rw [inBlock0]
  intro a
  match a with
  | ⟨0, _⟩ =>
    show win0_3.index ⟨(i 0).val / 400, _⟩ (0 : Fin 2) * 400 ≤ (i 0).val ∧ (i 0).val < win0_3.index ⟨(i 0).val / 400, _⟩ (0 : Fin 2) * 400 + 400
    rw [e30]; show (i 0).val / 400 * 400 ≤ (i 0).val ∧ (i 0).val < (i 0).val / 400 * 400 + 400; omega
  | ⟨1, _⟩ =>
    show win0_3.index ⟨(i 0).val / 400, _⟩ (1 : Fin 2) * 64 ≤ (i 1).val ∧ (i 1).val < win0_3.index ⟨(i 0).val / 400, _⟩ (1 : Fin 2) * 64 + 64
    rw [e31]; omega

/-- THE OUTPUT ARRAY after the region: the layer of the three input arrays. -/
theorem final0 (c : Dev nD) : ((dat0 V c).arrAt 3 cfg0.N : S10000x64.Idx → EReal) = layer (V c (Pipeline.arrRef spec0 2) : S10000x10000.Idx → EReal) (V c (Pipeline.arrRef spec0 0) : S10000x128.Idx → EReal) (V c (Pipeline.arrRef spec0 1) : S128x64.Idx → EReal) :=
  (dat0 V c).arrAt_eq_of_cover 3 _ (fun t _ => written0 V c t) covered0

/-! ## The second output: the adjacency itself -/

/-- Narrowing the format changes no value, so point `t` writes back the point's rows of the adjacency. -/
theorem copied0 (c : Dev nD) (t : Fin cfg0.N) :
    (dat0 V c).flushed 4 t = ((cfg0.win 4).blk t).view.read (Elt Ideal) (V c (Pipeline.arrRef spec0 2) : S10000x10000.Idx → EReal) := by
  show (cfg0.win 4).cut (grid0.coords t) ((dat0 V c).after 4 t) = _
  rw [after0_4]
  obtain ⟨e00, e01, e10, e11, e20, e21, e30, e31, e40, e41⟩ := idx0 t
  funext y
  show V c (Pipeline.arrRef spec0 2) (((cfg0.win 2).blk t).view.emb y) = V c (Pipeline.arrRef spec0 2) (((cfg0.win 4).blk t).view.emb y)
  refine congrArg _ ?_
  funext a; apply Fin.ext
  match a with
  | ⟨0, _⟩ => show win0_2.index t (0 : Fin 2) * 400 + 1 * (y 0).val = win0_4.index t (0 : Fin 2) * 400 + 1 * (y 0).val; omega
  | ⟨1, _⟩ => show win0_2.index t (1 : Fin 2) * 10000 + 1 * (y 1).val = win0_4.index t (1 : Fin 2) * 10000 + 1 * (y 1).val; omega

theorem inCopy0 (t : Fin cfg0.N) (i : S10000x10000.Idx) :
    i ∈ ((cfg0.win 4).blk t).view.set ↔ ∀ a : Fin 2, win0_4.index t a * S400x10000.size a ≤ (i a).val ∧ (i a).val < win0_4.index t a * S400x10000.size a + S400x10000.size a := by
  show i ∈ ((View.whole main_v0_1).slice (win0_4.rect t)).set ↔ _
  rw [View.set_slice_whole, Rect.mem_set_unit]
  exact Iff.rfl

theorem copyCovered0 (i : S10000x10000.Idx) : ∃ t : Fin cfg0.N, (cfg0.win 4).flush t = true ∧ i ∈ ((cfg0.win 4).blk t).view.set := by
  have hi0 : (i 0).val < 10000 := (i 0).isLt
  have hi1 : (i 1).val < 10000 := (i 1).isLt
  have hN : cfg0.N = 25 := N_0
  refine ⟨⟨(i 0).val / 400, by rw [hN]; omega⟩, flush0_4 _, ?_⟩
  obtain ⟨e00, e01, e10, e11, e20, e21, e30, e31, e40, e41⟩ := idx0 ⟨(i 0).val / 400, by rw [hN]; omega⟩
  rw [inCopy0]
  intro a
  match a with
  | ⟨0, _⟩ =>
    show win0_4.index ⟨(i 0).val / 400, _⟩ (0 : Fin 2) * 400 ≤ (i 0).val ∧ (i 0).val < win0_4.index ⟨(i 0).val / 400, _⟩ (0 : Fin 2) * 400 + 400
    rw [e40]; show (i 0).val / 400 * 400 ≤ (i 0).val ∧ (i 0).val < (i 0).val / 400 * 400 + 400; omega
  | ⟨1, _⟩ =>
    show win0_4.index ⟨(i 0).val / 400, _⟩ (1 : Fin 2) * 10000 ≤ (i 1).val ∧ (i 1).val < win0_4.index ⟨(i 0).val / 400, _⟩ (1 : Fin 2) * 10000 + 10000
    rw [e41]; omega

/-- The second output array after the region: the adjacency, value for value. -/
theorem copy0 (c : Dev nD) : ((dat0 V c).arrAt 4 cfg0.N : S10000x10000.Idx → EReal) = (V c (Pipeline.arrRef spec0 2) : S10000x10000.Idx → EReal) :=
  (dat0 V c).arrAt_eq_of_cover 4 _ (fun t _ => copied0 V c t) copyCovered0

end Cert.KernelIdeal.Layers

end
-- ==== Proof.LayerValue1.lean ====
/-
  Layer 1 at the ideal values: the output array after the region is the graph layer of the region's three input arrays.

  The scratch holds hidden X W (the payload is a matrix product into a zero accumulator followed by a change of format,
  which changes no value); a point's output block is aggregate (the point's rows of A) (the scratch); and a block of rows
  of the aggregate is the aggregate on those rows.  The 25 blocks of 400 rows tile the 10000 rows, so the array ends at
  layer A X W everywhere.
-/
import proofs.«149695_g32023276159196_cont_9to1_2195_4_alg».proof.Proof.LayerData1
import proofs.«149695_g32023276159196_cont_9to1_2195_4_alg».proof.Proof.LibGcnLayer
import proofs.«149695_g32023276159196_cont_9to1_2195_4_alg».proof.Proof.LibBlockDot
import Idealize.ShloMosaic.Lib.Pipeline.Value
import Idealize.ShloMosaic.Lib.ValueIdx

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.BlockDot Cert.Gcn

/-! ## The two payloads -/

/-- What the first point stores in the scratch is X · W. -/
theorem scratch1_is (x : Vec Ideal S10000x64 .f32) (w : Vec Ideal S64x64 .f32) :
    (k1_pay1 x w : S10000x64.Idx → EReal) = hidden (n := 10000) (f := 64) (h := 64) x w := by
  funext i
  obtain ⟨k, j, rfl⟩ : ∃ (k : Fin 10000) (j : Fin 64), i = ix2 k j := ⟨i 0, i 1, eq_ix2 i⟩
  unfold k1_pay1
  simp only [shapeCast_self]
  exact kdot_apply (φ₁ := .f32) (φ₂ := .f32) none x w k j

/-- What a point stores in its output block is max(a · h, 0) for its rows a of the adjacency and the scratch h. -/
theorem block1_is (a : Vec Ideal S400x10000 .bf16) (h : Vec Ideal S10000x64 .bf16) :
    (k1_pay2 a h : S400x64.Idx → EReal) = aggregate (r := 400) (n := 10000) (h := 64) a h := by
  funext i
  obtain ⟨p, j, rfl⟩ : ∃ (p : Fin 400) (j : Fin 64), i = ix2 p j := ⟨i 0, i 1, eq_ix2 i⟩
  unfold k1_pay2
  simp only [shapeCast_self]
  rw [maximumf_apply]
  exact congrArg (max · _) (kdot_apply (φ₁ := .bf16) (φ₂ := .bf16) none a h p j)

/-! ## Where each window's block sits, decided over the 25 grid points -/

theorem idx1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-! ## The blocks read off their arrays -/

/-- Window 0's block at the first point is the whole array X. -/
theorem whole1_0 (c : Dev nD) : (blk1 V c 0 origin1 : S10000x64.Idx → EReal) = (V c (Pipeline.arrRef spec1 0) : S10000x64.Idx → EReal) := by
  obtain ⟨e00, e01, e10, e11, e20, e21, e30, e31⟩ := idx1 origin1
  funext y
  show V c (Pipeline.arrRef spec1 0) (((cfg1.win 0).blk origin1).view.emb y) = V c (Pipeline.arrRef spec1 0) y
  refine congrArg _ ?_
  funext a; apply Fin.ext
  match a with
  | ⟨0, _⟩ => show win1_0.index origin1 (0 : Fin 2) * 10000 + 1 * (y 0).val = (y 0).val; omega
  | ⟨1, _⟩ => show win1_0.index origin1 (1 : Fin 2) * 64 + 1 * (y 1).val = (y 1).val; omega

/-- Window 1's block at the first point is the whole array W. -/
theorem whole1_1 (c : Dev nD) : (blk1 V c 1 origin1 : S64x64.Idx → EReal) = (V c (Pipeline.arrRef spec1 1) : S64x64.Idx → EReal) := by
  obtain ⟨e00, e01, e10, e11, e20, e21, e30, e31⟩ := idx1 origin1
  funext y
  show V c (Pipeline.arrRef spec1 1) (((cfg1.win 1).blk origin1).view.emb y) = V c (Pipeline.arrRef spec1 1) y
  refine congrArg _ ?_
  funext a; apply Fin.ext
  match a with
  | ⟨0, _⟩ => show win1_1.index origin1 (0 : Fin 2) * 64 + 1 * (y 0).val = (y 0).val; omega
  | ⟨1, _⟩ => show win1_1.index origin1 (1 : Fin 2) * 64 + 1 * (y 1).val = (y 1).val; omega

/-- Window 2's block at point `t` is rows 400·t, …, 400·t + 399 of A. -/
theorem rows1 (c : Dev nD) (t : Fin cfg1.N) (p : Fin 400) (q : Fin 10000) (k : Fin 10000) (hq : q.val = t.val * 400 + p.val) :
    (blk1 V c 2 t : S400x10000.Idx → EReal) (ix2 p k) = (V c (Pipeline.arrRef spec1 2) : S10000x10000.Idx → EReal) (ix2 q k) := by
  obtain ⟨e00, e01, e10, e11, e20, e21, e30, e31⟩ := idx1 t
  show V c (Pipeline.arrRef spec1 2) (((cfg1.win 2).blk t).view.emb (ix2 p k)) = V c (Pipeline.arrRef spec1 2) (ix2 q k)
  refine congrArg _ ?_
  funext a; apply Fin.ext
  match a with
  | ⟨0, _⟩ => show win1_2.index t (0 : Fin 2) * 400 + 1 * p.val = q.val; omega
  | ⟨1, _⟩ => show win1_2.index t (1 : Fin 2) * 10000 + 1 * k.val = k.val; omega

/-- The scratch holds X · W of the whole arrays. -/
theorem hid1_is (c : Dev nD) : (hid1 V c : S10000x64.Idx → EReal) = hidden (V c (Pipeline.arrRef spec1 0) : S10000x64.Idx → EReal) (V c (Pipeline.arrRef spec1 1) : S64x64.Idx → EReal) := by
  unfold hid1
  rw [scratch1_is, whole1_0, whole1_1]

/-! ## What a point writes back, and that the blocks tile the array -/

/-- Point `t` writes back block `t` of the layer of the whole arrays. -/
theorem written1 (c : Dev nD) (t : Fin cfg1.N) :
    (dat1 V c).flushed 3 t = ((cfg1.win 3).blk t).view.read (Elt Ideal) (layer (V c (Pipeline.arrRef spec1 2) : S10000x10000.Idx → EReal) (V c (Pipeline.arrRef spec1 0) : S10000x64.Idx → EReal) (V c (Pipeline.arrRef spec1 1) : S64x64.Idx → EReal)) := by
  show (cfg1.win 3).cut (grid1.coords t) ((dat1 V c).after 3 t) = _
  rw [after1_3, block1_is, hid1_is]
  obtain ⟨e00, e01, e10, e11, e20, e21, e30, e31⟩ := idx1 t
  funext y
  show aggregate (blk1 V c 2 t : S400x10000.Idx → EReal) (hidden (V c (Pipeline.arrRef spec1 0) : S10000x64.Idx → EReal) (V c (Pipeline.arrRef spec1 1) : S64x64.Idx → EReal)) y
    = aggregate (V c (Pipeline.arrRef spec1 2) : S10000x10000.Idx → EReal) (hidden (V c (Pipeline.arrRef spec1 0) : S10000x64.Idx → EReal) (V c (Pipeline.arrRef spec1 1) : S64x64.Idx → EReal)) (((cfg1.win 3).blk t).view.emb y)
  refine aggregate_rows _ _ _ (t.val * 400) y _ ?_ ?_ (fun p q k hq => rows1 V c t p q k hq)
  · show win1_3.index t (0 : Fin 2) * 400 + 1 * (y 0).val = t.val * 400 + (y 0).val; omega
  · show win1_3.index t (1 : Fin 2) * 64 + 1 * (y 1).val = (y 1).val; omega

/-- An index of the output array is in point `t`'s block iff each coordinate is in the block's range. -/
theorem inBlock1 (t : Fin cfg1.N) (i : S10000x64.Idx) :
    i ∈ ((cfg1.win 3).blk t).view.set ↔ ∀ a : Fin 2, win1_3.index t a * S400x64.size a ≤ (i a).val ∧ (i a).val < win1_3.index t a * S400x64.size a + S400x64.size a := by
  show i ∈ ((View.whole main_v1).slice (win1_3.rect t)).set ↔ _
  rw [View.set_slice_whole, Rect.mem_set_unit]
  exact Iff.rfl

/-- Row r of the output is in the block of point r / 400. -/
theorem covered1 (i : S10000x64.Idx) : ∃ t : Fin cfg1.N, (cfg1.win 3).flush t = true ∧ i ∈ ((cfg1.win 3).blk t).view.set := by
  have hi0 : (i 0).val < 10000 := (i 0).isLt
  have hi1 : (i 1).val < 64 := (i 1).isLt
  have hN : cfg1.N = 25 := N_1
  refine ⟨⟨(i 0).val / 400, by rw [hN]; omega⟩, flush1_3 _, ?_⟩
  obtain ⟨e00, e01, e10, e11, e20, e21, e30, e31⟩ := idx1 ⟨(i 0).val / 400, by rw [hN]; omega⟩
  rw [inBlock1]
  intro a
  match a with
  | ⟨0, _⟩ =>
    show win1_3.index ⟨(i 0).val / 400, _⟩ (0 : Fin 2) * 400 ≤ (i 0).val ∧ (i 0).val < win1_3.index ⟨(i 0).val / 400, _⟩ (0 : Fin 2) * 400 + 400
    rw [e30]; show (i 0).val / 400 * 400 ≤ (i 0).val ∧ (i 0).val < (i 0).val / 400 * 400 + 400; omega
  | ⟨1, _⟩ =>
    show win1_3.index ⟨(i 0).val / 400, _⟩ (1 : Fin 2) * 64 ≤ (i 1).val ∧ (i 1).val < win1_3.index ⟨(i 0).val / 400, _⟩ (1 : Fin 2) * 64 + 64
    rw [e31]; omega

/-- THE OUTPUT ARRAY after the region: the layer of the three input arrays. -/
theorem final1 (c : Dev nD) : ((dat1 V c).arrAt 3 cfg1.N : S10000x64.Idx → EReal) = layer (V c (Pipeline.arrRef spec1 2) : S10000x10000.Idx → EReal) (V c (Pipeline.arrRef spec1 0) : S10000x64.Idx → EReal) (V c (Pipeline.arrRef spec1 1) : S64x64.Idx → EReal) :=
  (dat1 V c).arrAt_eq_of_cover 3 _ (fun t _ => written1 V c t) covered1

end Cert.KernelIdeal.Layers

end
-- ==== Proof.LayerValue2.lean ====
/-
  Layer 2 at the ideal values: the output array after the region is the graph layer of the region's three input arrays.

  The scratch holds hidden X W (the payload is a matrix product into a zero accumulator followed by a change of format,
  which changes no value); a point's output block is aggregate (the point's rows of A) (the scratch); and a block of rows
  of the aggregate is the aggregate on those rows.  The 25 blocks of 400 rows tile the 10000 rows, so the array ends at
  layer A X W everywhere.
-/
import proofs.«149695_g32023276159196_cont_9to1_2195_4_alg».proof.Proof.LayerData2
import proofs.«149695_g32023276159196_cont_9to1_2195_4_alg».proof.Proof.LibGcnLayer
import proofs.«149695_g32023276159196_cont_9to1_2195_4_alg».proof.Proof.LibBlockDot
import Idealize.ShloMosaic.Lib.Pipeline.Value
import Idealize.ShloMosaic.Lib.ValueIdx

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.BlockDot Cert.Gcn

/-! ## The two payloads -/

/-- What the first point stores in the scratch is X · W. -/
theorem scratch2_is (x : Vec Ideal S10000x64 .f32) (w : Vec Ideal S64x16 .f32) :
    (k2_pay1 x w : S10000x16.Idx → EReal) = hidden (n := 10000) (f := 64) (h := 16) x w := by
  funext i
  obtain ⟨k, j, rfl⟩ : ∃ (k : Fin 10000) (j : Fin 16), i = ix2 k j := ⟨i 0, i 1, eq_ix2 i⟩
  unfold k2_pay1
  simp only [shapeCast_self]
  exact kdot_apply (φ₁ := .f32) (φ₂ := .f32) none x w k j

/-- What a point stores in its output block is max(a · h, 0) for its rows a of the adjacency and the scratch h. -/
theorem block2_is (a : Vec Ideal S400x10000 .bf16) (h : Vec Ideal S10000x16 .bf16) :
    (k2_pay2 a h : S400x16.Idx → EReal) = aggregate (r := 400) (n := 10000) (h := 16) a h := by
  funext i
  obtain ⟨p, j, rfl⟩ : ∃ (p : Fin 400) (j : Fin 16), i = ix2 p j := ⟨i 0, i 1, eq_ix2 i⟩
  unfold k2_pay2
  simp only [shapeCast_self]
  rw [maximumf_apply]
  exact congrArg (max · _) (kdot_apply (φ₁ := .bf16) (φ₂ := .bf16) none a h p j)

/-! ## Where each window's block sits, decided over the 25 grid points -/

theorem idx2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-! ## The blocks read off their arrays -/

/-- Window 0's block at the first point is the whole array X. -/
theorem whole2_0 (c : Dev nD) : (blk2 V c 0 origin2 : S10000x64.Idx → EReal) = (V c (Pipeline.arrRef spec2 0) : S10000x64.Idx → EReal) := by
  obtain ⟨e00, e01, e10, e11, e20, e21, e30, e31⟩ := idx2 origin2
  funext y
  show V c (Pipeline.arrRef spec2 0) (((cfg2.win 0).blk origin2).view.emb y) = V c (Pipeline.arrRef spec2 0) y
  refine congrArg _ ?_
  funext a; apply Fin.ext
  match a with
  | ⟨0, _⟩ => show win2_0.index origin2 (0 : Fin 2) * 10000 + 1 * (y 0).val = (y 0).val; omega
  | ⟨1, _⟩ => show win2_0.index origin2 (1 : Fin 2) * 64 + 1 * (y 1).val = (y 1).val; omega

/-- Window 1's block at the first point is the whole array W. -/
theorem whole2_1 (c : Dev nD) : (blk2 V c 1 origin2 : S64x16.Idx → EReal) = (V c (Pipeline.arrRef spec2 1) : S64x16.Idx → EReal) := by
  obtain ⟨e00, e01, e10, e11, e20, e21, e30, e31⟩ := idx2 origin2
  funext y
  show V c (Pipeline.arrRef spec2 1) (((cfg2.win 1).blk origin2).view.emb y) = V c (Pipeline.arrRef spec2 1) y
  refine congrArg _ ?_
  funext a; apply Fin.ext
  match a with
  | ⟨0, _⟩ => show win2_1.index origin2 (0 : Fin 2) * 64 + 1 * (y 0).val = (y 0).val; omega
  | ⟨1, _⟩ => show win2_1.index origin2 (1 : Fin 2) * 16 + 1 * (y 1).val = (y 1).val; omega

/-- Window 2's block at point `t` is rows 400·t, …, 400·t + 399 of A. -/
theorem rows2 (c : Dev nD) (t : Fin cfg2.N) (p : Fin 400) (q : Fin 10000) (k : Fin 10000) (hq : q.val = t.val * 400 + p.val) :
    (blk2 V c 2 t : S400x10000.Idx → EReal) (ix2 p k) = (V c (Pipeline.arrRef spec2 2) : S10000x10000.Idx → EReal) (ix2 q k) := by
  obtain ⟨e00, e01, e10, e11, e20, e21, e30, e31⟩ := idx2 t
  show V c (Pipeline.arrRef spec2 2) (((cfg2.win 2).blk t).view.emb (ix2 p k)) = V c (Pipeline.arrRef spec2 2) (ix2 q k)
  refine congrArg _ ?_
  funext a; apply Fin.ext
  match a with
  | ⟨0, _⟩ => show win2_2.index t (0 : Fin 2) * 400 + 1 * p.val = q.val; omega
  | ⟨1, _⟩ => show win2_2.index t (1 : Fin 2) * 10000 + 1 * k.val = k.val; omega

/-- The scratch holds X · W of the whole arrays. -/
theorem hid2_is (c : Dev nD) : (hid2 V c : S10000x16.Idx → EReal) = hidden (V c (Pipeline.arrRef spec2 0) : S10000x64.Idx → EReal) (V c (Pipeline.arrRef spec2 1) : S64x16.Idx → EReal) := by
  unfold hid2
  rw [scratch2_is, whole2_0, whole2_1]

/-! ## What a point writes back, and that the blocks tile the array -/

/-- Point `t` writes back block `t` of the layer of the whole arrays. -/
theorem written2 (c : Dev nD) (t : Fin cfg2.N) :
    (dat2 V c).flushed 3 t = ((cfg2.win 3).blk t).view.read (Elt Ideal) (layer (V c (Pipeline.arrRef spec2 2) : S10000x10000.Idx → EReal) (V c (Pipeline.arrRef spec2 0) : S10000x64.Idx → EReal) (V c (Pipeline.arrRef spec2 1) : S64x16.Idx → EReal)) := by
  show (cfg2.win 3).cut (grid2.coords t) ((dat2 V c).after 3 t) = _
  rw [after2_3, block2_is, hid2_is]
  obtain ⟨e00, e01, e10, e11, e20, e21, e30, e31⟩ := idx2 t
  funext y
  show aggregate (blk2 V c 2 t : S400x10000.Idx → EReal) (hidden (V c (Pipeline.arrRef spec2 0) : S10000x64.Idx → EReal) (V c (Pipeline.arrRef spec2 1) : S64x16.Idx → EReal)) y
    = aggregate (V c (Pipeline.arrRef spec2 2) : S10000x10000.Idx → EReal) (hidden (V c (Pipeline.arrRef spec2 0) : S10000x64.Idx → EReal) (V c (Pipeline.arrRef spec2 1) : S64x16.Idx → EReal)) (((cfg2.win 3).blk t).view.emb y)
  refine aggregate_rows _ _ _ (t.val * 400) y _ ?_ ?_ (fun p q k hq => rows2 V c t p q k hq)
  · show win2_3.index t (0 : Fin 2) * 400 + 1 * (y 0).val = t.val * 400 + (y 0).val; omega
  · show win2_3.index t (1 : Fin 2) * 16 + 1 * (y 1).val = (y 1).val; omega

/-- An index of the output array is in point `t`'s block iff each coordinate is in the block's range. -/
theorem inBlock2 (t : Fin cfg2.N) (i : S10000x16.Idx) :
    i ∈ ((cfg2.win 3).blk t).view.set ↔ ∀ a : Fin 2, win2_3.index t a * S400x16.size a ≤ (i a).val ∧ (i a).val < win2_3.index t a * S400x16.size a + S400x16.size a := by
  show i ∈ ((View.whole main_v2).slice (win2_3.rect t)).set ↔ _
  rw [View.set_slice_whole, Rect.mem_set_unit]
  exact Iff.rfl

/-- Row r of the output is in the block of point r / 400. -/
theorem covered2 (i : S10000x16.Idx) : ∃ t : Fin cfg2.N, (cfg2.win 3).flush t = true ∧ i ∈ ((cfg2.win 3).blk t).view.set := by
  have hi0 : (i 0).val < 10000 := (i 0).isLt
  have hi1 : (i 1).val < 16 := (i 1).isLt
  have hN : cfg2.N = 25 := N_2
  refine ⟨⟨(i 0).val / 400, by rw [hN]; omega⟩, flush2_3 _, ?_⟩
  obtain ⟨e00, e01, e10, e11, e20, e21, e30, e31⟩ := idx2 ⟨(i 0).val / 400, by rw [hN]; omega⟩
  rw [inBlock2]
  intro a
  match a with
  | ⟨0, _⟩ =>
    show win2_3.index ⟨(i 0).val / 400, _⟩ (0 : Fin 2) * 400 ≤ (i 0).val ∧ (i 0).val < win2_3.index ⟨(i 0).val / 400, _⟩ (0 : Fin 2) * 400 + 400
    rw [e30]; show (i 0).val / 400 * 400 ≤ (i 0).val ∧ (i 0).val < (i 0).val / 400 * 400 + 400; omega
  | ⟨1, _⟩ =>
    show win2_3.index ⟨(i 0).val / 400, _⟩ (1 : Fin 2) * 16 ≤ (i 1).val ∧ (i 1).val < win2_3.index ⟨(i 0).val / 400, _⟩ (1 : Fin 2) * 16 + 16
    rw [e31]; omega

/-- THE OUTPUT ARRAY after the region: the layer of the three input arrays. -/
theorem final2 (c : Dev nD) : ((dat2 V c).arrAt 3 cfg2.N : S10000x16.Idx → EReal) = layer (V c (Pipeline.arrRef spec2 2) : S10000x10000.Idx → EReal) (V c (Pipeline.arrRef spec2 0) : S10000x64.Idx → EReal) (V c (Pipeline.arrRef spec2 1) : S64x16.Idx → EReal) :=
  (dat2 V c).arrAt_eq_of_cover 3 _ (fun t _ => written2 V c t) covered2

end Cert.KernelIdeal.Layers

end
-- ==== Proof.LayerResult.lean ====
/-
  The result array at the ideal values: three graph layers over one adjacency.

  Layer 0 turns (A, X, W0) into x1 = layer A X W0 and a copy of A; layer 1 reads x1, W1 and the copy and leaves
  x2 = layer A x1 W1; layer 2 reads x2, W2 and the copy and leaves layer A x2 W2 in the result array.  Each layer's
  inputs are read off what the layer before left (or, for a weight matrix, off the launch memory, no region having
  written it), and the per-layer statement is applied three times.
-/
import proofs.«149695_g32023276159196_cont_9to1_2195_4_alg».proof.Proof.LayerNet
import proofs.«149695_g32023276159196_cont_9to1_2195_4_alg».proof.Proof.LayerValue0
import proofs.«149695_g32023276159196_cont_9to1_2195_4_alg».proof.Proof.LayerValue1
import proofs.«149695_g32023276159196_cont_9to1_2195_4_alg».proof.Proof.LayerValue2

set_option maxRecDepth 16384

noncomputable section

namespace Cert.KernelIdeal.Layers

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Gcn

variable (m : (ℓ : Loc nD τ sig) → Buf (Elt Ideal) ℓ)

/-- The launch memory's five arrays, as arrays of extended reals. -/
abbrev adj (c : Dev nD) : S10000x10000.Idx → EReal := m ((c : Thread nD τ).loc main_arg1)
abbrev feat (c : Dev nD) : S10000x128.Idx → EReal := m ((c : Thread nD τ).loc main_arg0)
abbrev wIn (c : Dev nD) : S128x64.Idx → EReal := m ((c : Thread nD τ).loc main_arg2)
abbrev wHid (c : Dev nD) : S64x64.Idx → EReal := m ((c : Thread nD τ).loc main_arg3)
abbrev wOut (c : Dev nD) : S64x16.Idx → EReal := m ((c : Thread nD τ).loc main_arg4)

/-! ## Layer 1's inputs -/

theorem in1_x (c : Dev nD) : (entry1 m c (Pipeline.arrRef spec1 0) : S10000x64.Idx → EReal) = layer (adj m c) (feat m c) (wIn m c) :=
  (after0_arr m c 3).trans (final0 (entry0 m) c)

theorem in1_w (c : Dev nD) : (entry1 m c (Pipeline.arrRef spec1 1) : S64x64.Idx → EReal) = wHid m c :=
  after0_off m c main_arg3 (by decide)

theorem in1_a (c : Dev nD) : (entry1 m c (Pipeline.arrRef spec1 2) : S10000x10000.Idx → EReal) = adj m c :=
  (after0_arr m c 4).trans (copy0 (entry0 m) c)

/-! ## Layer 2's inputs -/

theorem in2_x (c : Dev nD) : (entry2 m c (Pipeline.arrRef spec2 0) : S10000x64.Idx → EReal)
    = layer (adj m c) (layer (adj m c) (feat m c) (wIn m c)) (wHid m c) := by
  refine ((after1_arr m c 3).trans (final1 (entry1 m) c)).trans ?_
  rw [in1_x, in1_w, in1_a]

theorem in2_w (c : Dev nD) : (entry2 m c (Pipeline.arrRef spec2 1) : S64x16.Idx → EReal) = wOut m c :=
  (after1_off m c main_arg4 (by decide)).trans (after0_off m c main_arg4 (by decide))

theorem in2_a (c : Dev nD) : (entry2 m c (Pipeline.arrRef spec2 2) : S10000x10000.Idx → EReal) = adj m c :=
  ((after1_arr m c 2).trans (((dat1 (entry1 m) c).arrAt_in 2 rfl _).trans (A1 (entry1 m) c 2))).trans (in1_a m c)

/-! ## The result -/

/-- The network as one function of the five arrays. -/
abbrev network (A : S10000x10000.Idx → EReal) (X : S10000x128.Idx → EReal) (W0 : S128x64.Idx → EReal)
    (W1 : S64x64.Idx → EReal) (W2 : S64x16.Idx → EReal) : S10000x16.Idx → EReal :=
  layer A (layer A (layer A X W0) W1) W2

/-- After the run the result array holds the network of the launch memory's arrays. -/
theorem result_is (c : Dev nD) :
    (after2 m c (Proc.devRef .tc main_v2) : S10000x16.Idx → EReal)
      = network (adj m c) (feat m c) (wIn m c) (wHid m c) (wOut m c) := by
  refine ((after2_arr m c 3).trans (final2 (entry2 m) c)).trans ?_
  rw [in2_x, in2_w, in2_a]

end Cert.KernelIdeal.Layers

end
-- ==== Proof.LibGcnHost.lean ====
/-
  The host's spelling of one graph layer is the layer: two `dot_general`s (X · W, then A · that) and a `maximum` against a
  zero broadcast from a scalar.  Each product read at (p, j) is the plain sum of products, the broadcast reads the
  scalar everywhere, and the maximum acts entry by entry; the sums are the specification's, term for term.
-/
import proofs.«149695_g32023276159196_cont_9to1_2195_4_alg».proof.Proof.LibGcnLayer
import proofs.«149695_g32023276159196_cont_9to1_2195_4_alg».proof.Proof.LibBlockDot
import Idealize.ShloMosaic.Lib.Pipeline.Value
import Idealize.ShloMosaic.Lib.ValueIdx

noncomputable section

open scoped BigOperators

namespace Cert.Gcn

open Idealize.ShloMosaic Idealize.ShloMosaic.ValueIdx Cert.BlockDot

/-- The host's layer over the plain contraction records, as a whole array. -/
theorem host_layer {n f h : ℕ} (A : FVec Ideal ⟨2, ![n, n]⟩ .f32) (X : FVec Ideal ⟨2, ![n, f]⟩ .f32) (W : FVec Ideal ⟨2, ![f, h]⟩ .f32)
    (hb : (⟨0, ![]⟩ : Shape).BroadcastsInDim ⟨2, ![n, h]⟩ ![]) :
    (maximumf (Host.dotGeneral (DotDims.plain n n h) none A (Host.dotGeneral (DotDims.plain n f h) none X W))
        (broadcastInDim ⟨2, ![n, h]⟩ ![] hb (constant ⟨0, ![]⟩ .f32 0x00000000#32)) : (⟨2, ![n, h]⟩ : Shape).Idx → EReal)
      = layer A X W := by
  funext i
  obtain ⟨p, j, rfl⟩ : ∃ (p : Fin n) (j : Fin h), i = ix2 p j := ⟨i 0, i 1, eq_ix2 i⟩
  rw [maximumf_apply, hdot_apply]
  unfold layer aggregate hidden
  have hz : broadcastInDim (⟨2, ![n, h]⟩ : Shape) ![] hb (constant (F := Ideal) ⟨0, ![]⟩ .f32 0x00000000#32) (ix2 p j)
      = Ideal.ofBits .f32 0x00000000#32 :=
    broadcastInDim_apply _ hb _ (ix2 p j) (fun a => a.elim0) (fun a => a.elim0)
  rw [hz]
  refine congrArg (max · _) (Finset.sum_congr rfl fun k _ => ?_)
  rw [hdot_apply]
  rfl

end Cert.Gcn

end
-- ==== Proof.RefLayers.lean ====
/-
  The reference at the ideal values is the same three layers: its result term, read back by the generated run, is
  max(A · (· · W), 0) nested three times in the host's spelling, and each nesting is one `layer`.
-/
import proofs.«149695_g32023276159196_cont_9to1_2195_4_alg».proof.Proof.Gen.ReferenceIdeal.Run
import proofs.«149695_g32023276159196_cont_9to1_2195_4_alg».proof.Proof.Gen.ReferenceIdeal.Read
import proofs.«149695_g32023276159196_cont_9to1_2195_4_alg».proof.Proof.LibGcnHost

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Cert.Gcn

/-- The reference's result, stage by stage, is layer A (layer A (layer A X W0) W1) W2. -/
theorem result_is (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64x64, .f32⟩ : BufTy).Contents (Elt Ideal))
    (x4 : (⟨S64x16, .f32⟩ : BufTy).Contents (Elt Ideal)) :
    (val_main_v8 (F := Ideal) x0 x1 x2 x3 x4 : S10000x16.Idx → EReal)
      = layer (n := 10000) (f := 64) (h := 16) x1 (layer (n := 10000) (f := 64) (h := 64) x1 (layer (n := 10000) (f := 128) (h := 64) x1 x0 x2) x3) x4 := by
  rw [← host_layer (n := 10000) (f := 64) (h := 16) x1 _ x4 bcast_S_S10000x16,
    ← host_layer (n := 10000) (f := 64) (h := 64) x1 _ x3 bcast_S_S10000x64,
    ← host_layer (n := 10000) (f := 128) (h := 64) x1 x0 x2 bcast_S_S10000x64]
  rfl

end Cert.ReferenceIdeal.RefValue

end
-- ==== Proof.lean ====
/-
  A three-layer dense graph network, out = L(L(L(X, W0), W1), W2) with L(Y, W) = max(A · (Y · W), 0) over one
  10000 × 10000 adjacency A, computed by a kernel of three pipelined regions against a plain host reference.

  The kernel's regions each keep Y · W in a scratch buffer from the first grid point on and produce the layer 400 rows
  at a time; the first region also writes a copy of A in a narrower float format, which the other two read.  At the
  ideal values a change of format changes nothing, a row block of a product is the product of the row block, and
  both programs compute the same nested sums in the same order: no law of the extended reals beyond that is used, and
  the precondition (finite inputs) is never opened.

  • frames: each program runs to the end without a fault and leaves its five argument arrays as launched — for the
    two kernel programs from the run of the three regions (Proof/LayerNet, Proof/WordLayerNet: the same argument at
    the machine words and at the extended reals), for the reference from its generated run;
  • the idealized kernel is the kernel's own text (no rewrite was applied), so `preserves` is trivial;
  • the two idealized programs end with equal results: the kernel's result array is `network A X W0 W1 W2`
    (Proof/LayerResult) and so is the reference's result term (Proof/RefLayers).
-/
import proofs.«149695_g32023276159196_cont_9to1_2195_4_alg».proof.Defs
import proofs.«149695_g32023276159196_cont_9to1_2195_4_alg».proof.Proof.Gen.Kernel
import proofs.«149695_g32023276159196_cont_9to1_2195_4_alg».proof.Proof.Gen.KernelIdeal
import proofs.«149695_g32023276159196_cont_9to1_2195_4_alg».proof.Proof.Gen.ReferenceIdeal
import proofs.«149695_g32023276159196_cont_9to1_2195_4_alg».proof.Proof.Gen.Pre_finite_inputs
import proofs.«149695_g32023276159196_cont_9to1_2195_4_alg».proof.Proof.Gen.ReferenceIdeal.Run
import proofs.«149695_g32023276159196_cont_9to1_2195_4_alg».proof.Proof.Gen.ReferenceIdeal.Read
import proofs.«149695_g32023276159196_cont_9to1_2195_4_alg».proof.Proof.WordLayerEnds
import proofs.«149695_g32023276159196_cont_9to1_2195_4_alg».proof.Proof.LayerEnds
import proofs.«149695_g32023276159196_cont_9to1_2195_4_alg».proof.Proof.LayerResult
import proofs.«149695_g32023276159196_cont_9to1_2195_4_alg».proof.Proof.RefLayers
import Idealize.ShloMosaic.Adequacy
import Idealize.ShloMosaic.Init

noncomputable section

namespace Cert.Proof

open Idealize.ShloMosaic Idealize.ShloMosaic.TcCoe Idealize.SL.Sem

/-- The kernel at the machine words: it runs, and the arguments end as launched. -/
theorem frame_kernel : Cert.frame_Kernel := fun m ρ _ => Cert.Kernel.Layers.frame m ρ

/-- The same at the extended reals. -/
theorem frame_kernelIdeal : Cert.frame_KernelIdeal := fun m ρ _ => Cert.KernelIdeal.Layers.frame m ρ

/-- The reference: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories that agree on the five arguments both idealized programs end with the network of those arrays in
    their result, and with the arguments unchanged. -/
theorem algebraic : Cert.algebraic_KernelIdeal_ReferenceIdeal := by
  intro m ρ m' ρ' _ hagree
  refine ⟨fun c => Cert.KernelIdeal.Layers.network (Cert.KernelIdeal.Layers.adj m c) (Cert.KernelIdeal.Layers.feat m c)
      (Cert.KernelIdeal.Layers.wIn m c) (Cert.KernelIdeal.Layers.wHid m c) (Cert.KernelIdeal.Layers.wOut m c), ?_, ?_⟩
  · exact (θ_run Cert.KernelIdeal.defs _ _).mono (fun r h c =>
      ⟨(h c _ (Cert.KernelIdeal.Layers.named Cert.KernelIdeal.main_v2 (by decide))).trans (Cert.KernelIdeal.Layers.result_is m c),
       (h c _ (Cert.KernelIdeal.Layers.named Cert.KernelIdeal.main_arg0 (by decide))).trans (Cert.KernelIdeal.Layers.kept_arg0 m c),
       (h c _ (Cert.KernelIdeal.Layers.named Cert.KernelIdeal.main_arg1 (by decide))).trans (Cert.KernelIdeal.Layers.kept_arg1 m c),
       (h c _ (Cert.KernelIdeal.Layers.named Cert.KernelIdeal.main_arg2 (by decide))).trans (Cert.KernelIdeal.Layers.kept_arg2 m c),
       (h c _ (Cert.KernelIdeal.Layers.named Cert.KernelIdeal.main_arg3 (by decide))).trans (Cert.KernelIdeal.Layers.kept_arg3 m c),
       (h c _ (Cert.KernelIdeal.Layers.named Cert.KernelIdeal.main_arg4 (by decide))).trans (Cert.KernelIdeal.Layers.kept_arg4 m c)⟩)
      (Cert.KernelIdeal.Layers.net_run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.ReferenceIdeal.RefValue.result_is,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
